-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S7x64 : Shape := ⟨2, ![7, 64]⟩
abbrev S7 : Shape := ⟨1, ![7]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S7x64 : S_.BroadcastsInDim S7x64 (![] : Fin 0 → Fin S7x64.rank)
  reducesTo_S7x64_S_d0_1 : S7x64.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S64 .f32) (main_arg6 : FVec F S7x64 .f32) (main_arg7 : FVec F S7 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S7x64 .f32 := Host.absf main_arg6
  let main_cst_8 : FVec F S_ .f32 := constant S_ .f32 0x7F800000#32
  let main_v25 : FVec F S7x64 .f32 := broadcastInDim S7x64 ![] bcast_S_S7x64 main_cst_8
  let main_v26 : IVec S7x64 1 := cmpf .olt main_v24 main_v25
  let main_c_9 : IVec S_ 1 := constantI S_ 1 1#1
  let main_v27 : IVec S_ 1 := (fun x v => Host.reduce IntOp.andi x v reducesTo_S7x64_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x64 .f32) (main_arg1 : IVec S2x1600000 32) (main_arg2 : FVec F S64x64 .f32) (main_arg3 : FVec F S64 .f32) (main_arg4 : FVec F S64x64 .f32) (main_arg5 : FVec F S64 .f32) (main_arg6 : FVec F S7x64 .f32) (main_arg7 : FVec F S7 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S7x64 : Shape := ⟨2, ![7, 64]⟩
abbrev S7 : Shape := ⟨1, ![7]⟩
abbrev S1x1600000 : Shape := ⟨2, ![1, 1600000]⟩
abbrev S1600000 : Shape := ⟨1, ![1600000]⟩
abbrev S64x7 : Shape := ⟨2, ![64, 7]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S50000x7 : Shape := ⟨2, ![50000, 7]⟩
abbrev S5000x7 : Shape := ⟨2, ![5000, 7]⟩
abbrev S1600000x7 : Shape := ⟨2, ![1600000, 7]⟩
abbrev S1x7 : Shape := ⟨2, ![1, 7]⟩
abbrev S5000 : Shape := ⟨1, ![5000]⟩
abbrev S5000x1 : Shape := ⟨2, ![5000, 1]⟩

abbrev nBuf : Space → Nat
  | .hbm => 63
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S7x64, .f32⟩
  | .hbm, ⟨7, _⟩ => ⟨S7, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S64x64, .f32⟩
  | .hbm, ⟨13, _⟩ => ⟨S64x64, .f32⟩
  | .hbm, ⟨14, _⟩ => ⟨S64x7, .f32⟩
  | .hbm, ⟨15, _⟩ => ⟨S50000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S50000x64, .f32⟩
  | .hbm, ⟨27, _⟩ => ⟨S1600000x1, .i32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x7, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x7, .f32⟩
  | .hbm, ⟨57, _⟩ => ⟨S_, .f32⟩
  | .hbm, ⟨58, _⟩ => ⟨S50000x7, .f32⟩
  | .hbm, ⟨59, _⟩ => ⟨S1600000x1, .i32⟩
  | .hbm, ⟨60, _⟩ => ⟨S50000x7, .f32⟩
  | .hbm, ⟨61, _⟩ => ⟨S1x7, .f32⟩
  | .hbm, ⟨62, _⟩ => ⟨S50000x7, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x7, .f32⟩
  | .local _ .vmem, ⟨23, _⟩ => ⟨S5000x7, .f32⟩
  | .local _ .vmem, ⟨24, _⟩ => ⟨S5000x7, .f32⟩
  | .local _ .vmem, ⟨25, _⟩ => ⟨S5000x7, .f32⟩
  | .local _ .vmem, ⟨26, _⟩ => ⟨S5000x7, .f32⟩
  | .local _ .vmem, ⟨27, _⟩ => ⟨S1x7, .f32⟩
  | .local _ .vmem, ⟨28, _⟩ => ⟨S5000x7, .f32⟩
  | .local _ .vmem, ⟨29, _⟩ => ⟨S5000x7, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x64_S64x64_1_0 : S64x64.Transposes [1, 0] S64x64
  transposes_S7x64_S64x7_1_0 : S7x64.Transposes [1, 0] S64x7
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x7_S64x7_0_0 : ∀ a, (![0, 0] : Fin 2 → Nat) a + S64x7.size a ≤ S64x7.size a
  h_S64x7 : 0 < S64x7.numel
  shapeCasts_S64x7_S64x7 : S64x7.ShapeCasts S64x7
  inb_S5000x7_S5000x7_0_0 : ∀ a, (![0, 0] : Fin 2 → Nat) a + S5000x7.size a ≤ S5000x7.size a
  h_S5000x7 : 0 < S5000x7.numel
  bcast_S_S50000x7 : S_.BroadcastsInDim S50000x7 (![] : Fin 0 → Fin S50000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x7_S5000x7_1_0_0_1_n_n_wf : DotDims.WF S5000x64 S64x7 S5000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x7.size a ≤ S64x7.size a
  hwx4_1 : ∀ i : grid4.Coords, EltTy.bits .f32 = 32 ∨ (Rect.block (s := S64x7) S64x7.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x7.size a ≤ S50000x7.size a
  hwx4_2 : ∀ i : grid4.Coords, EltTy.bits .f32 = 32 ∨ (Rect.block (s := S50000x7) S5000x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x7.size a ≤ S50000x7.size a
  hwx5_0 : ∀ i : grid5.Coords, EltTy.bits .f32 = 32 ∨ (Rect.block (s := S50000x7) S5000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x7.size a ≤ S50000x7.size a
  hwx5_2 : ∀ i : grid5.Coords, EltTy.bits .f32 = 32 ∨ (Rect.block (s := S50000x7) S5000x7.size (cc5_transform_2 i) (hinb5_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x7_S5000x7_1_0_0_1_n_n : DotDims S5000x64 S64x7 S5000x7 where
  lhsContracting := [1]
  rhsContracting := [0]
  lhsNonContracting := [0]
  rhsNonContracting := [1]
  lhsBatch := []
  rhsBatch := []
  wf := dot_S5000x64_S64x7_S5000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v32) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S64x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S5000x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S5000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v45) S5000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S7x64 : Shape := ⟨2, ![7, 64]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S64x7 : Shape := ⟨2, ![64, 7]⟩
abbrev S50000x7 : Shape := ⟨2, ![50000, 7]⟩
abbrev S1600000x7 : Shape := ⟨2, ![1600000, 7]⟩
abbrev S1x7 : Shape := ⟨2, ![1, 7]⟩
abbrev S50000 : Shape := ⟨1, ![50000]⟩
abbrev S50000x1 : Shape := ⟨2, ![50000, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S7x64, .f32⟩
  | .hbm, ⟨7, _⟩ => ⟨S7, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S64x64, .f32⟩
  | .hbm, ⟨13, _⟩ => ⟨S50000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S50000x64, .f32⟩
  | .hbm, ⟨25, _⟩ => ⟨S1600000x1, .i32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S50000x64, .f32⟩
  | .hbm, ⟨46, _⟩ => ⟨S1600000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | .hbm, ⟨54, _⟩ => ⟨S64x7, .f32⟩
  | .hbm, ⟨55, _⟩ => ⟨S50000x7, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x7, .f32⟩
  | .hbm, ⟨65, _⟩ => ⟨S_, .f32⟩
  | .hbm, ⟨66, _⟩ => ⟨S50000x7, .f32⟩
  | .hbm, ⟨67, _⟩ => ⟨S1600000x1, .i32⟩
  | .hbm, ⟨68, _⟩ => ⟨S50000x7, .f32⟩
  | .hbm, ⟨69, _⟩ => ⟨S1x7, .f32⟩
  | .hbm, ⟨70, _⟩ => ⟨S50000x7, .f32⟩
  | .hbm, ⟨71, _⟩ => ⟨S50000x7, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x7, .f32⟩
  | .hbm, ⟨79, _⟩ => ⟨S50000x7, .f32⟩
  | .hbm, ⟨80, _⟩ => ⟨S50000x7, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S50000x1, .f32⟩
  | .hbm, ⟨85, _⟩ => ⟨S50000x7, .f32⟩
  | .hbm, ⟨86, _⟩ => ⟨S50000x7, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call2_cst : Ref sig .tc := ⟨.hbm, 72, rfl⟩
abbrev main_call2_v0 : Ref sig .tc := ⟨.hbm, 73, rfl⟩
abbrev main_call2_cst_0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_cst_1 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_v51 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x64_S64x64_1_0 : S64x64.Transposes [1, 0] S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S7x64_S64x7_1_0 : S7x64.Transposes [1, 0] S64x7
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x7_S50000x7_1_0_0_1_n_n_wf : DotDims.WF S50000x64 S64x7 S50000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x7_S50000x7_1_0_0_1_n_n : DotDims S50000x64 S64x7 S50000x7 where
  lhsContracting := [1]
  rhsContracting := [0]
  lhsNonContracting := [0]
  rhsNonContracting := [1]
  lhsBatch := []
  rhsBatch := []
  wf := dot_S50000x64_S64x7_S50000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf

class Facts : Prop extends Facts₀ where

variable [Facts]
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.Net.lean ====
/-
  The network as ONE function of the eight argument arrays.

  Three graph-convolution layers.  A layer multiplies every node's feature row by a transposed weight matrix
  ("GcnSpec.lin"), sums the products along the edges ("agg": the source rows are gathered, negative node numbers
  wrapped once, and scatter-added onto the destination rows of a zero array), adds the bias as a one-row array and
  applies the activation: the maximum with zero in the first two layers ("GcnSpec.relu"), the logarithm of the softmax
  along the row in the last ("GcnSpec.lsm").  The sum along the edges is carried as one name, "agg64" / "agg7": both
  programs apply the very same host operations there, so it is never opened.
-/
import proofs.«176552_j240518168947_1_alg».proof.KernelIdeal
import proofs.«176552_j240518168947_1_alg».proof.Proof.Gen.KernelIdeal
import proofs.«176552_j240518168947_1_alg».proof.Proof.LibRowWise

noncomputable section

namespace Cert.KernelIdeal.Hand

open Cert.KernelIdeal Cert.KernelIdeal.Gen Idealize.ShloMosaic

/-- Float and integer arrays at the ideal values. -/
abbrev F32 (s : Shape) : Type := (⟨s, .f32⟩ : BufTy).Contents (Elt Ideal)
abbrev I32 (s : Shape) : Type := (⟨s, .i32⟩ : BufTy).Contents (Elt Ideal)

/-- The source node of every edge: row 0 of the edge list. -/
def src (e : I32 S2x1600000) : I32 S1600000 :=
  shapeCast _ (extractStridedSlice S1x1600000 ![0, 0] e slices_S2x1600000_S1x1600000_0_0) shapeCasts_S1x1600000_S1600000

/-- The destination node of every edge: row 1 of the edge list. -/
def dst (e : I32 S2x1600000) : I32 S1600000 :=
  shapeCast _ (extractStridedSlice S1x1600000 ![1, 0] e slices_S2x1600000_S1x1600000_1_0) shapeCasts_S1x1600000_S1600000

/-- The source numbers as a gather's start indices: a negative number has the node count added once. -/
def wrapped (s : I32 S1600000) : I32 S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The sum along the edges of 64-wide rows: gather the source rows, scatter-add them onto the destinations. -/
def agg64 (h : F32 S50000x64) (s d : I32 S1600000) : F32 S50000x64 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 d)
    (Host.gather gather_S50000x64_S1600000x1_S1600000x64_1_0_n_n_0_1_164 h (wrapped s))

/-- The same for 7-wide rows. -/
def agg7 (h : F32 S50000x7) (s d : I32 S1600000) : F32 S50000x7 :=
  Host.scatterAdd (F := Ideal) scatter_S50000x7_S1600000x1_S1600000x7_1_0_0_1
    (broadcastInDim S50000x7 ![] bcast_S_S50000x7 (constant (F := Ideal) S_ .f32 0x00000000#32))
    (broadcastInDim S1600000x1 ![0] bcast_S1600000_S1600000x1_0 d)
    (Host.gather gather_S50000x7_S1600000x1_S1600000x7_1_0_n_n_0_1_17 h (wrapped s))

/-- A 64 × 64 weight matrix transposed, a 7 × 64 one transposed, and a bias as a one-row array. -/
def wT64 (W : F32 S64x64) : F32 S64x64 := transpose S64x64 [1, 0] W transposes_S64x64_S64x64_1_0
def wT7 (W : F32 S7x64) : F32 S64x7 := transpose S64x7 [1, 0] W transposes_S7x64_S64x7_1_0
def bRow64 (b : F32 S64) : F32 S1x64 := shapeCast _ b shapeCasts_S64_S1x64
def bRow7 (b : F32 S7) : F32 S1x7 := shapeCast _ b shapeCasts_S7_S1x7

/-- One hidden layer: linear, sum along the edges, bias, maximum with zero. -/
def hidden (x : F32 S50000x64) (s d : I32 S1600000) (W : F32 S64x64) (b : F32 S64) : F32 S50000x64 :=
  GcnSpec.relu (agg64 (GcnSpec.lin x (wT64 W)) s d) (bRow64 b)

/-- The output layer: linear onto 7 classes, sum along the edges, bias, logarithm of the softmax. -/
def output (x : F32 S50000x64) (s d : I32 S1600000) (W : F32 S7x64) (b : F32 S7) : F32 S50000x7 :=
  GcnSpec.lsm (agg7 (GcnSpec.lin x (wT7 W)) s d) (bRow7 b)

/-- The network. -/
def net (x : F32 S50000x64) (e : I32 S2x1600000) (W1 : F32 S64x64) (b1 : F32 S64) (W2 : F32 S64x64) (b2 : F32 S64)
    (W3 : F32 S7x64) (b3 : F32 S7) : F32 S50000x7 :=
  output (hidden (hidden x (src e) (dst e) W1 b1) (src e) (dst e) W2 b2) (src e) (dst e) W3 b3

end Cert.KernelIdeal.Hand

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«176552_j240518168947_1_alg».proof.Proof.LibRowWise
import proofs.«176552_j240518168947_1_alg».proof.Proof.LibMatProd
import proofs.«176552_j240518168947_1_alg».proof.Proof.LibRowCol
import proofs.«176552_j240518168947_1_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.Payloads.lean ====
/-
  What each of the six kernel bodies stores, as a layer of its two loaded blocks.

  The three "linear" bodies store the matrix unit's product of the row block with the weight block onto the zero
  accumulator (the two roundings to a narrower format on the way in are the identity on extended reals): the linear
  layer of the block.  The two middle bodies store bias-add followed by the maximum with zero; the last stores
  bias-add followed by the logarithm of the softmax along the row.  For the product the matrix unit's dimension
  record has to be read: its result index (r, c) and its one contracted coordinate l address the left operand at
  (r, l) and the right operand at (l, c).
-/
import proofs.«176552_j240518168947_1_alg».proof.Proof.Gen.KernelIdeal.Skeleton
import proofs.«176552_j240518168947_1_alg».proof.Proof.LibRowOps

noncomputable section

namespace Cert.KernelIdeal.Hand

open Cert.KernelIdeal Cert.KernelIdeal.Gen Idealize.ShloMosaic

/-- The dimension records of the 64 → 64 and the 64 → 7 products. -/
abbrev D64 : DotDims S5000x64 S64x64 S5000x64 := dot_S5000x64_S64x64_S5000x64_1_0_0_1_n_n
abbrev D7 : DotDims S5000x64 S64x7 S5000x7 := dot_S5000x64_S64x7_S5000x7_1_0_0_1_n_n

theorem d64_l0 (i : S5000x64.Idx) (q : D64.contr.Idx) : (D64.lhsIdx i q 0).val = (i 0).val := by
  unfold DotDims.lhsIdx
  rw [dif_neg (show ¬(0 : Fin S5000x64.rank) ∈ D64.lhsBatch by decide), dif_pos (show (0 : Fin S5000x64.rank) ∈ D64.lhsNonContracting by decide)]
  rfl
theorem d64_l1 (i : S5000x64.Idx) (q : D64.contr.Idx) : (D64.lhsIdx i q 1).val = (q ⟨0, by decide⟩).val :=
  D64.lhsIdx_val_of_single rfl i q
theorem d64_r0 (i : S5000x64.Idx) (q : D64.contr.Idx) : (D64.rhsIdx i q 0).val = (q ⟨0, by decide⟩).val :=
  D64.rhsIdx_val_of_single rfl i q
theorem d64_r1 (i : S5000x64.Idx) (q : D64.contr.Idx) : (D64.rhsIdx i q 1).val = (i 1).val := by
  unfold DotDims.rhsIdx
  rw [dif_neg (show ¬(1 : Fin S64x64.rank) ∈ D64.rhsBatch by decide), dif_pos (show (1 : Fin S64x64.rank) ∈ D64.rhsNonContracting by decide)]
  rfl

theorem d7_l0 (i : S5000x7.Idx) (q : D7.contr.Idx) : (D7.lhsIdx i q 0).val = (i 0).val := by
  unfold DotDims.lhsIdx
  rw [dif_neg (show ¬(0 : Fin S5000x64.rank) ∈ D7.lhsBatch by decide), dif_pos (show (0 : Fin S5000x64.rank) ∈ D7.lhsNonContracting by decide)]
  rfl
theorem d7_l1 (i : S5000x7.Idx) (q : D7.contr.Idx) : (D7.lhsIdx i q 1).val = (q ⟨0, by decide⟩).val :=
  D7.lhsIdx_val_of_single rfl i q
theorem d7_r0 (i : S5000x7.Idx) (q : D7.contr.Idx) : (D7.rhsIdx i q 0).val = (q ⟨0, by decide⟩).val :=
  D7.rhsIdx_val_of_single rfl i q
theorem d7_r1 (i : S5000x7.Idx) (q : D7.contr.Idx) : (D7.rhsIdx i q 1).val = (i 1).val := by
  unfold DotDims.rhsIdx
  rw [dif_neg (show ¬(1 : Fin S64x7.rank) ∈ D7.rhsBatch by decide), dif_pos (show (1 : Fin S64x7.rank) ∈ D7.rhsNonContracting by decide)]
  rfl

/-- First linear body: the block times the weight block. -/
theorem pay0_eq (x0 : Vec Ideal S5000x64 .f32) (x1 : Vec Ideal S64x64 .f32) : k0_pay1 x0 x1 = GcnSpec.lin x0 x1 := by
  unfold k0_pay1
  dsimp only
  rw [shapeCast_self]
  exact GcnOps.matmul_zero_eq_lin D64 none rfl rfl d64_l0 d64_l1 d64_r0 d64_r1 _ _

/-- Second linear body (its block is first cast to its own shape). -/
theorem pay2_eq (x0 : Vec Ideal S5000x64 .f32) (x1 : Vec Ideal S64x64 .f32) : k2_pay1 x0 x1 = GcnSpec.lin x0 x1 := by
  unfold k2_pay1
  dsimp only
  rw [shapeCast_self, shapeCast_self]
  exact GcnOps.matmul_zero_eq_lin D64 none rfl rfl d64_l0 d64_l1 d64_r0 d64_r1 _ _

/-- Third linear body: onto seven columns. -/
theorem pay4_eq (x0 : Vec Ideal S5000x64 .f32) (x1 : Vec Ideal S64x7 .f32) : k4_pay1 x0 x1 = GcnSpec.lin x0 x1 := by
  unfold k4_pay1
  dsimp only
  rw [shapeCast_self, shapeCast_self]
  exact GcnOps.matmul_zero_eq_lin D7 none rfl rfl d7_l0 d7_l1 d7_r0 d7_r1 _ _

/-- The two middle bodies: bias, then the maximum with zero. -/
theorem pay1_eq (x0 : Vec Ideal S5000x64 .f32) (x1 : Vec Ideal S1x64 .f32) : k1_pay1 x0 x1 = GcnSpec.relu x0 x1 := by
  unfold k1_pay1
  exact GcnOps.relu_body x0 x1 _ _ _
theorem pay3_eq (x0 : Vec Ideal S5000x64 .f32) (x1 : Vec Ideal S1x64 .f32) : k3_pay1 x0 x1 = GcnSpec.relu x0 x1 := by
  unfold k3_pay1
  exact GcnOps.relu_body x0 x1 _ _ _

/-- The last body: bias, then the logarithm of the softmax along the row. -/
theorem pay5_eq (x0 : Vec Ideal S5000x7 .f32) (x1 : Vec Ideal S1x7 .f32) : k5_pay1 x0 x1 = GcnSpec.lsm x0 x1 := by
  unfold k5_pay1
  exact GcnOps.lsm_body x0 x1 _ _ _ _ _ _ _ _ _

end Cert.KernelIdeal.Hand

end
-- ==== Proof.Region0.lean ====
/-
  Region 0 (the first linear layer): the array it leaves.

  The region walks the ten bands of 5000 rows.  At band t it loads rows 5000 t … 5000 t + 4999 of its first operand
  and the whole of its second operand, and writes back, to the same rows of its result, what the body stores: the
  layer "lin" of the band.  A row-wise layer of a band is the band of the layer of the whole array, so band t of
  the result is band t of "lin" of the two operands as the region finds them; the ten bands cover every row, so
  after the region the result array IS that layer, whatever the contents "V" the region is entered with.
-/
import proofs.«176552_j240518168947_1_alg».proof.Proof.Gen.KernelIdeal.Frame
import proofs.«176552_j240518168947_1_alg».proof.Proof.Payloads
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2_0 : (![0, 0] : Fin 2 → Nat) = fun _ => 0 := funext fun a => by fin_cases a <;> rfl

/-- The three windows' block indices at point t: the row band t for the first operand and the result, block (0, 0)
    (the whole array) for the second operand. Decided over the ten points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The second operand's block is the whole array at every point. -/
theorem iblk0_1 (c : Dev nD) (t : Fin cfg0.N) : iblk0 V c 1 t = V c main_v4 := by
  obtain ⟨-, -, e2, e3, -, -⟩ := idx_facts0 t
  funext y
  show V c main_v4 (((cfg0.win 1).blk t).view.emb y) = V c main_v4 y
  refine congrArg (V c main_v4) (funext fun a => Fin.ext ?_)
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- What point t writes back is band t of the layer of the whole operands. -/
theorem flushed0_eq (c : Dev nD) (t : Fin cfg0.N) :
    (dat0 V c).flushed 2 t
      = ((cfg0.win 2).blk t).view.read (Elt Ideal) (GcnSpec.lin (V c main_arg0) (V c main_v4)) := by
  show (cfg0.win 2).cut (grid0.coords t) ((dat0 V c).after 2 t) = _
  rw [after0_2]
  unfold out0_2
  rw [View.canon_unit_zero zero2_0]
  simp only [View.ld_unit_zero (S := S5000x64) zero2_0, View.ld_unit_zero (S := S64x64) zero2_0]
  rw [pay0_eq, iblk0_1]
  obtain ⟨e0, e1, -, -, e4, e5⟩ := idx_facts0 t
  funext j
  show GcnSpec.lin (iblk0 V c 0 t) (V c main_v4) j
    = GcnSpec.lin (V c main_arg0) (V c main_v4) (((cfg0.win 2).blk t).view.emb j)
  unfold GcnSpec.lin
  refine (GcnSpec.rowMap_band (N := 50000) (n := 5000) (k := 64) (q := 64) _ (V c main_arg0) (5000 * t.val)
    (((cfg0.win 0).blk t).view.emb) (((cfg0.win 2).blk t).view.emb) ?_ ?_ ?_ ?_ j).symm
  · intro y; show win0_0.index t (0 : Fin 2) * 5000 + 1 * (y 0).val = _; rw [e0]; omega
  · intro y; show win0_0.index t (1 : Fin 2) * 64 + 1 * (y 1).val = _; rw [e1]; omega
  · intro y; show win0_2.index t (0 : Fin 2) * 5000 + 1 * (y 0).val = _; rw [e4]; omega
  · intro y; show win0_2.index t (1 : Fin 2) * 64 + 1 * (y 1).val = _; rw [e5]; omega

/-- An index of the result array is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v7).slice (win0_2.rect t)).set ↔ _
  rw [View.set_slice_whole, Rect.mem_set_unit]
  exact Iff.rfl

/-- Every index of the result array is in the block of the point its row's band names. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The result array after the region is the layer of the operands as the region finds them. -/
theorem final0 (c : Dev nD) :
    (dat0 V c).arrAt 2 cfg0.N = GcnSpec.lin (V c main_arg0) (V c main_v4) :=
  (dat0 V c).arrAt_eq_of_cover 2 _ (fun t _ => flushed0_eq V c t) (cover0)

end Cert.KernelIdeal.Hand

end
-- ==== Proof.Region1.lean ====
/-
  Region 1 (bias and maximum with zero, first layer): the array it leaves.

  The region walks the ten bands of 5000 rows.  At band t it loads rows 5000 t … 5000 t + 4999 of its first operand
  and the whole of its second operand, and writes back, to the same rows of its result, what the body stores: the
  layer "relu" of the band.  A row-wise layer of a band is the band of the layer of the whole array, so band t of
  the result is band t of "relu" of the two operands as the region finds them; the ten bands cover every row, so
  after the region the result array IS that layer, whatever the contents "V" the region is entered with.
-/
import proofs.«176552_j240518168947_1_alg».proof.Proof.Gen.KernelIdeal.Frame
import proofs.«176552_j240518168947_1_alg».proof.Proof.Payloads
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2_1 : (![0, 0] : Fin 2 → Nat) = fun _ => 0 := funext fun a => by fin_cases a <;> rfl

/-- The three windows' block indices at point t: the row band t for the first operand and the result, block (0, 0)
    (the whole array) for the second operand. Decided over the ten points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The second operand's block is the whole array at every point. -/
theorem iblk1_1 (c : Dev nD) (t : Fin cfg1.N) : iblk1 V c 1 t = V c main_v18 := by
  obtain ⟨-, -, e2, e3, -, -⟩ := idx_facts1 t
  funext y
  show V c main_v18 (((cfg1.win 1).blk t).view.emb y) = V c main_v18 y
  refine congrArg (V c main_v18) (funext fun a => Fin.ext ?_)
  match a with
  | ⟨0, _⟩ => show win1_1.index t (0 : Fin 2) * 1 + 1 * (y 0).val = (y 0).val; rw [e2]; omega
  | ⟨1, _⟩ => show win1_1.index t (1 : Fin 2) * 64 + 1 * (y 1).val = (y 1).val; rw [e3]; omega

/-- What point t writes back is band t of the layer of the whole operands. -/
theorem flushed1_eq (c : Dev nD) (t : Fin cfg1.N) :
    (dat1 V c).flushed 2 t
      = ((cfg1.win 2).blk t).view.read (Elt Ideal) (GcnSpec.relu (V c main_v17) (V c main_v18)) := by
  show (cfg1.win 2).cut (grid1.coords t) ((dat1 V c).after 2 t) = _
  rw [after1_2]
  unfold out1_2
  rw [View.canon_unit_zero zero2_1]
  simp only [View.ld_unit_zero (S := S5000x64) zero2_1, View.ld_unit_zero (S := S1x64) zero2_1]
  rw [pay1_eq, iblk1_1]
  obtain ⟨e0, e1, -, -, e4, e5⟩ := idx_facts1 t
  funext j
  show GcnSpec.relu (iblk1 V c 0 t) (V c main_v18) j
    = GcnSpec.relu (V c main_v17) (V c main_v18) (((cfg1.win 2).blk t).view.emb j)
  unfold GcnSpec.relu
  refine (GcnSpec.rowMap_band (N := 50000) (n := 5000) (k := 64) (q := 64) _ (V c main_v17) (5000 * t.val)
    (((cfg1.win 0).blk t).view.emb) (((cfg1.win 2).blk t).view.emb) ?_ ?_ ?_ ?_ j).symm
  · intro y; show win1_0.index t (0 : Fin 2) * 5000 + 1 * (y 0).val = _; rw [e0]; omega
  · intro y; show win1_0.index t (1 : Fin 2) * 64 + 1 * (y 1).val = _; rw [e1]; omega
  · intro y; show win1_2.index t (0 : Fin 2) * 5000 + 1 * (y 0).val = _; rw [e4]; omega
  · intro y; show win1_2.index t (1 : Fin 2) * 64 + 1 * (y 1).val = _; rw [e5]; omega

/-- An index of the result array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v19).slice (win1_2.rect t)).set ↔ _
  rw [View.set_slice_whole, Rect.mem_set_unit]
  exact Iff.rfl

/-- Every index of the result array is in the block of the point its row's band names. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e4, e5⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The result array after the region is the layer of the operands as the region finds them. -/
theorem final1 (c : Dev nD) :
    (dat1 V c).arrAt 2 cfg1.N = GcnSpec.relu (V c main_v17) (V c main_v18) :=
  (dat1 V c).arrAt_eq_of_cover 2 _ (fun t _ => flushed1_eq V c t) (cover1)

end Cert.KernelIdeal.Hand

end
-- ==== Proof.Region2.lean ====
/-
  Region 2 (the second linear layer): the array it leaves.

  The region walks the ten bands of 5000 rows.  At band t it loads rows 5000 t … 5000 t + 4999 of its first operand
  and the whole of its second operand, and writes back, to the same rows of its result, what the body stores: the
  layer "lin" of the band.  A row-wise layer of a band is the band of the layer of the whole array, so band t of
  the result is band t of "lin" of the two operands as the region finds them; the ten bands cover every row, so
  after the region the result array IS that layer, whatever the contents "V" the region is entered with.
-/
import proofs.«176552_j240518168947_1_alg».proof.Proof.Gen.KernelIdeal.Frame
import proofs.«176552_j240518168947_1_alg».proof.Proof.Payloads
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2_2 : (![0, 0] : Fin 2 → Nat) = fun _ => 0 := funext fun a => by fin_cases a <;> rfl

/-- The three windows' block indices at point t: the row band t for the first operand and the result, block (0, 0)
    (the whole array) for the second operand. Decided over the ten points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The second operand's block is the whole array at every point. -/
theorem iblk2_1 (c : Dev nD) (t : Fin cfg2.N) : iblk2 V c 1 t = V c main_v5 := by
  obtain ⟨-, -, e2, e3, -, -⟩ := idx_facts2 t
  funext y
  show V c main_v5 (((cfg2.win 1).blk t).view.emb y) = V c main_v5 y
  refine congrArg (V c main_v5) (funext fun a => Fin.ext ?_)
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- What point t writes back is band t of the layer of the whole operands. -/
theorem flushed2_eq (c : Dev nD) (t : Fin cfg2.N) :
    (dat2 V c).flushed 2 t
      = ((cfg2.win 2).blk t).view.read (Elt Ideal) (GcnSpec.lin (V c main_v19) (V c main_v5)) := by
  show (cfg2.win 2).cut (grid2.coords t) ((dat2 V c).after 2 t) = _
  rw [after2_2]
  unfold out2_2
  rw [View.canon_unit_zero zero2_2]
  simp only [View.ld_unit_zero (S := S5000x64) zero2_2, View.ld_unit_zero (S := S64x64) zero2_2]
  rw [pay2_eq, iblk2_1]
  obtain ⟨e0, e1, -, -, e4, e5⟩ := idx_facts2 t
  funext j
  show GcnSpec.lin (iblk2 V c 0 t) (V c main_v5) j
    = GcnSpec.lin (V c main_v19) (V c main_v5) (((cfg2.win 2).blk t).view.emb j)
  unfold GcnSpec.lin
  refine (GcnSpec.rowMap_band (N := 50000) (n := 5000) (k := 64) (q := 64) _ (V c main_v19) (5000 * t.val)
    (((cfg2.win 0).blk t).view.emb) (((cfg2.win 2).blk t).view.emb) ?_ ?_ ?_ ?_ j).symm
  · intro y; show win2_0.index t (0 : Fin 2) * 5000 + 1 * (y 0).val = _; rw [e0]; omega
  · intro y; show win2_0.index t (1 : Fin 2) * 64 + 1 * (y 1).val = _; rw [e1]; omega
  · intro y; show win2_2.index t (0 : Fin 2) * 5000 + 1 * (y 0).val = _; rw [e4]; omega
  · intro y; show win2_2.index t (1 : Fin 2) * 64 + 1 * (y 1).val = _; rw [e5]; omega

/-- An index of the result array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v20).slice (win2_2.rect t)).set ↔ _
  rw [View.set_slice_whole, Rect.mem_set_unit]
  exact Iff.rfl

/-- Every index of the result array is in the block of the point its row's band names. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- The result array after the region is the layer of the operands as the region finds them. -/
theorem final2 (c : Dev nD) :
    (dat2 V c).arrAt 2 cfg2.N = GcnSpec.lin (V c main_v19) (V c main_v5) :=
  (dat2 V c).arrAt_eq_of_cover 2 _ (fun t _ => flushed2_eq V c t) (cover2)

end Cert.KernelIdeal.Hand

end
-- ==== Proof.Region3.lean ====
/-
  Region 3 (bias and maximum with zero, second layer): the array it leaves.

  The region walks the ten bands of 5000 rows.  At band t it loads rows 5000 t … 5000 t + 4999 of its first operand
  and the whole of its second operand, and writes back, to the same rows of its result, what the body stores: the
  layer "relu" of the band.  A row-wise layer of a band is the band of the layer of the whole array, so band t of
  the result is band t of "relu" of the two operands as the region finds them; the ten bands cover every row, so
  after the region the result array IS that layer, whatever the contents "V" the region is entered with.
-/
import proofs.«176552_j240518168947_1_alg».proof.Proof.Gen.KernelIdeal.Frame
import proofs.«176552_j240518168947_1_alg».proof.Proof.Payloads
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2_3 : (![0, 0] : Fin 2 → Nat) = fun _ => 0 := funext fun a => by fin_cases a <;> rfl

/-- The three windows' block indices at point t: the row band t for the first operand and the result, block (0, 0)
    (the whole array) for the second operand. Decided over the ten points. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The second operand's block is the whole array at every point. -/
theorem iblk3_1 (c : Dev nD) (t : Fin cfg3.N) : iblk3 V c 1 t = V c main_v31 := by
  obtain ⟨-, -, e2, e3, -, -⟩ := idx_facts3 t
  funext y
  show V c main_v31 (((cfg3.win 1).blk t).view.emb y) = V c main_v31 y
  refine congrArg (V c main_v31) (funext fun a => Fin.ext ?_)
  match a with
  | ⟨0, _⟩ => show win3_1.index t (0 : Fin 2) * 1 + 1 * (y 0).val = (y 0).val; rw [e2]; omega
  | ⟨1, _⟩ => show win3_1.index t (1 : Fin 2) * 64 + 1 * (y 1).val = (y 1).val; rw [e3]; omega

/-- What point t writes back is band t of the layer of the whole operands. -/
theorem flushed3_eq (c : Dev nD) (t : Fin cfg3.N) :
    (dat3 V c).flushed 2 t
      = ((cfg3.win 2).blk t).view.read (Elt Ideal) (GcnSpec.relu (V c main_v30) (V c main_v31)) := by
  show (cfg3.win 2).cut (grid3.coords t) ((dat3 V c).after 2 t) = _
  rw [after3_2]
  unfold out3_2
  rw [View.canon_unit_zero zero2_3]
  simp only [View.ld_unit_zero (S := S5000x64) zero2_3, View.ld_unit_zero (S := S1x64) zero2_3]
  rw [pay3_eq, iblk3_1]
  obtain ⟨e0, e1, -, -, e4, e5⟩ := idx_facts3 t
  funext j
  show GcnSpec.relu (iblk3 V c 0 t) (V c main_v31) j
    = GcnSpec.relu (V c main_v30) (V c main_v31) (((cfg3.win 2).blk t).view.emb j)
  unfold GcnSpec.relu
  refine (GcnSpec.rowMap_band (N := 50000) (n := 5000) (k := 64) (q := 64) _ (V c main_v30) (5000 * t.val)
    (((cfg3.win 0).blk t).view.emb) (((cfg3.win 2).blk t).view.emb) ?_ ?_ ?_ ?_ j).symm
  · intro y; show win3_0.index t (0 : Fin 2) * 5000 + 1 * (y 0).val = _; rw [e0]; omega
  · intro y; show win3_0.index t (1 : Fin 2) * 64 + 1 * (y 1).val = _; rw [e1]; omega
  · intro y; show win3_2.index t (0 : Fin 2) * 5000 + 1 * (y 0).val = _; rw [e4]; omega
  · intro y; show win3_2.index t (1 : Fin 2) * 64 + 1 * (y 1).val = _; rw [e5]; omega

/-- An index of the result array is in point t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v32).slice (win3_2.rect t)).set ↔ _
  rw [View.set_slice_whole, Rect.mem_set_unit]
  exact Iff.rfl

/-- Every index of the result array is in the block of the point its row's band names. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨-, -, -, -, e4, e5⟩ := idx_facts3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

/-- The result array after the region is the layer of the operands as the region finds them. -/
theorem final3 (c : Dev nD) :
    (dat3 V c).arrAt 2 cfg3.N = GcnSpec.relu (V c main_v30) (V c main_v31) :=
  (dat3 V c).arrAt_eq_of_cover 2 _ (fun t _ => flushed3_eq V c t) (cover3)

end Cert.KernelIdeal.Hand

end
-- ==== Proof.Region4.lean ====
/-
  Region 4 (the third linear layer, onto seven classes): the array it leaves.

  The region walks the ten bands of 5000 rows.  At band t it loads rows 5000 t … 5000 t + 4999 of its first operand
  and the whole of its second operand, and writes back, to the same rows of its result, what the body stores: the
  layer "lin" of the band.  A row-wise layer of a band is the band of the layer of the whole array, so band t of
  the result is band t of "lin" of the two operands as the region finds them; the ten bands cover every row, so
  after the region the result array IS that layer, whatever the contents "V" the region is entered with.
-/
import proofs.«176552_j240518168947_1_alg».proof.Proof.Gen.KernelIdeal.Frame
import proofs.«176552_j240518168947_1_alg».proof.Proof.Payloads
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2_4 : (![0, 0] : Fin 2 → Nat) = fun _ => 0 := funext fun a => by fin_cases a <;> rfl

/-- The three windows' block indices at point t: the row band t for the first operand and the result, block (0, 0)
    (the whole array) for the second operand. Decided over the ten points. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The second operand's block is the whole array at every point. -/
theorem iblk4_1 (c : Dev nD) (t : Fin cfg4.N) : iblk4 V c 1 t = V c main_v6 := by
  obtain ⟨-, -, e2, e3, -, -⟩ := idx_facts4 t
  funext y
  show V c main_v6 (((cfg4.win 1).blk t).view.emb y) = V c main_v6 y
  refine congrArg (V c main_v6) (funext fun a => Fin.ext ?_)
  match a with
  | ⟨0, _⟩ => show win4_1.index t (0 : Fin 2) * 64 + 1 * (y 0).val = (y 0).val; rw [e2]; omega
  | ⟨1, _⟩ => show win4_1.index t (1 : Fin 2) * 7 + 1 * (y 1).val = (y 1).val; rw [e3]; omega

/-- What point t writes back is band t of the layer of the whole operands. -/
theorem flushed4_eq (c : Dev nD) (t : Fin cfg4.N) :
    (dat4 V c).flushed 2 t
      = ((cfg4.win 2).blk t).view.read (Elt Ideal) (GcnSpec.lin (V c main_v32) (V c main_v6)) := by
  show (cfg4.win 2).cut (grid4.coords t) ((dat4 V c).after 2 t) = _
  rw [after4_2]
  unfold out4_2
  rw [View.canon_unit_zero zero2_4]
  simp only [View.ld_unit_zero (S := S5000x64) zero2_4, View.ld_unit_zero (S := S64x7) zero2_4]
  rw [pay4_eq, iblk4_1]
  obtain ⟨e0, e1, -, -, e4, e5⟩ := idx_facts4 t
  funext j
  show GcnSpec.lin (iblk4 V c 0 t) (V c main_v6) j
    = GcnSpec.lin (V c main_v32) (V c main_v6) (((cfg4.win 2).blk t).view.emb j)
  unfold GcnSpec.lin
  refine (GcnSpec.rowMap_band (N := 50000) (n := 5000) (k := 64) (q := 7) _ (V c main_v32) (5000 * t.val)
    (((cfg4.win 0).blk t).view.emb) (((cfg4.win 2).blk t).view.emb) ?_ ?_ ?_ ?_ j).symm
  · intro y; show win4_0.index t (0 : Fin 2) * 5000 + 1 * (y 0).val = _; rw [e0]; omega
  · intro y; show win4_0.index t (1 : Fin 2) * 64 + 1 * (y 1).val = _; rw [e1]; omega
  · intro y; show win4_2.index t (0 : Fin 2) * 5000 + 1 * (y 0).val = _; rw [e4]; omega
  · intro y; show win4_2.index t (1 : Fin 2) * 7 + 1 * (y 1).val = _; rw [e5]; omega

/-- An index of the result array is in point t's block iff each coordinate is in the block's range on its axis. -/
theorem mem_blk4 (t : Fin cfg4.N) (i : S50000x7.Idx) :
    i ∈ ((cfg4.win 2).blk t).view.set ↔ ∀ a : Fin 2, win4_2.index t a * S5000x7.size a ≤ (i a).val ∧ (i a).val < win4_2.index t a * S5000x7.size a + S5000x7.size a := by
  show i ∈ ((View.whole main_v33).slice (win4_2.rect t)).set ↔ _
  rw [View.set_slice_whole, Rect.mem_set_unit]
  exact Iff.rfl

/-- Every index of the result array is in the block of the point its row's band names. -/
theorem cover4 (i : S50000x7.Idx) :
    ∃ t : Fin cfg4.N, (cfg4.win 2).flush t = true ∧ i ∈ ((cfg4.win 2).blk t).view.set := by
  have hi0 : (i 0).val < 50000 := (i 0).isLt
  have hi1 : (i 1).val < 7 := (i 1).isLt
  have hN : cfg4.N = 10 := N_4
  have ht : (i 0).val / 5000 < cfg4.N := by rw [hN]; omega
  obtain ⟨-, -, -, -, e4, e5⟩ := idx_facts4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 7 ≤ (i 1).val ∧ (i 1).val < win4_2.index ⟨(i 0).val / 5000, ht⟩ (1 : Fin 2) * 7 + 7
    rw [e5]; omega

/-- The result array after the region is the layer of the operands as the region finds them. -/
theorem final4 (c : Dev nD) :
    (dat4 V c).arrAt 2 cfg4.N = GcnSpec.lin (V c main_v32) (V c main_v6) :=
  (dat4 V c).arrAt_eq_of_cover 2 _ (fun t _ => flushed4_eq V c t) (cover4)

end Cert.KernelIdeal.Hand

end
-- ==== Proof.Region5.lean ====
/-
  Region 5 (bias and the logarithm of the softmax): the array it leaves.

  The region walks the ten bands of 5000 rows.  At band t it loads rows 5000 t … 5000 t + 4999 of its first operand
  and the whole of its second operand, and writes back, to the same rows of its result, what the body stores: the
  layer "lsm" of the band.  A row-wise layer of a band is the band of the layer of the whole array, so band t of
  the result is band t of "lsm" of the two operands as the region finds them; the ten bands cover every row, so
  after the region the result array IS that layer, whatever the contents "V" the region is entered with.
-/
import proofs.«176552_j240518168947_1_alg».proof.Proof.Gen.KernelIdeal.Frame
import proofs.«176552_j240518168947_1_alg».proof.Proof.Payloads
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2_5 : (![0, 0] : Fin 2 → Nat) = fun _ => 0 := funext fun a => by fin_cases a <;> rfl

/-- The three windows' block indices at point t: the row band t for the first operand and the result, block (0, 0)
    (the whole array) for the second operand. Decided over the ten points. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The second operand's block is the whole array at every point. -/
theorem iblk5_1 (c : Dev nD) (t : Fin cfg5.N) : iblk5 V c 1 t = V c main_v44 := by
  obtain ⟨-, -, e2, e3, -, -⟩ := idx_facts5 t
  funext y
  show V c main_v44 (((cfg5.win 1).blk t).view.emb y) = V c main_v44 y
  refine congrArg (V c main_v44) (funext fun a => Fin.ext ?_)
  match a with
  | ⟨0, _⟩ => show win5_1.index t (0 : Fin 2) * 1 + 1 * (y 0).val = (y 0).val; rw [e2]; omega
  | ⟨1, _⟩ => show win5_1.index t (1 : Fin 2) * 7 + 1 * (y 1).val = (y 1).val; rw [e3]; omega

/-- What point t writes back is band t of the layer of the whole operands. -/
theorem flushed5_eq (c : Dev nD) (t : Fin cfg5.N) :
    (dat5 V c).flushed 2 t
      = ((cfg5.win 2).blk t).view.read (Elt Ideal) (GcnSpec.lsm (V c main_v43) (V c main_v44)) := by
  show (cfg5.win 2).cut (grid5.coords t) ((dat5 V c).after 2 t) = _
  rw [after5_2]
  unfold out5_2
  rw [View.canon_unit_zero zero2_5]
  simp only [View.ld_unit_zero (S := S5000x7) zero2_5, View.ld_unit_zero (S := S1x7) zero2_5]
  rw [pay5_eq, iblk5_1]
  obtain ⟨e0, e1, -, -, e4, e5⟩ := idx_facts5 t
  funext j
  show GcnSpec.lsm (iblk5 V c 0 t) (V c main_v44) j
    = GcnSpec.lsm (V c main_v43) (V c main_v44) (((cfg5.win 2).blk t).view.emb j)
  unfold GcnSpec.lsm
  refine (GcnSpec.rowMap_band (N := 50000) (n := 5000) (k := 7) (q := 7) _ (V c main_v43) (5000 * t.val)
    (((cfg5.win 0).blk t).view.emb) (((cfg5.win 2).blk t).view.emb) ?_ ?_ ?_ ?_ j).symm
  · intro y; show win5_0.index t (0 : Fin 2) * 5000 + 1 * (y 0).val = _; rw [e0]; omega
  · intro y; show win5_0.index t (1 : Fin 2) * 7 + 1 * (y 1).val = _; rw [e1]; omega
  · intro y; show win5_2.index t (0 : Fin 2) * 5000 + 1 * (y 0).val = _; rw [e4]; omega
  · intro y; show win5_2.index t (1 : Fin 2) * 7 + 1 * (y 1).val = _; rw [e5]; omega

/-- An index of the result array is in point t's block iff each coordinate is in the block's range on its axis. -/
theorem mem_blk5 (t : Fin cfg5.N) (i : S50000x7.Idx) :
    i ∈ ((cfg5.win 2).blk t).view.set ↔ ∀ a : Fin 2, win5_2.index t a * S5000x7.size a ≤ (i a).val ∧ (i a).val < win5_2.index t a * S5000x7.size a + S5000x7.size a := by
  show i ∈ ((View.whole main_v45).slice (win5_2.rect t)).set ↔ _
  rw [View.set_slice_whole, Rect.mem_set_unit]
  exact Iff.rfl

/-- Every index of the result array is in the block of the point its row's band names. -/
theorem cover5 (i : S50000x7.Idx) :
    ∃ t : Fin cfg5.N, (cfg5.win 2).flush t = true ∧ i ∈ ((cfg5.win 2).blk t).view.set := by
  have hi0 : (i 0).val < 50000 := (i 0).isLt
  have hi1 : (i 1).val < 7 := (i 1).isLt
  have hN : cfg5.N = 10 := N_5
  have ht : (i 0).val / 5000 < cfg5.N := by rw [hN]; omega
  obtain ⟨-, -, -, -, e4, e5⟩ := idx_facts5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 7 ≤ (i 1).val ∧ (i 1).val < win5_2.index ⟨(i 0).val / 5000, ht⟩ (1 : Fin 2) * 7 + 7
    rw [e5]; omega

/-- The result array after the region is the layer of the operands as the region finds them. -/
theorem final5 (c : Dev nD) :
    (dat5 V c).arrAt 2 cfg5.N = GcnSpec.lsm (V c main_v43) (V c main_v44) :=
  (dat5 V c).arrAt_eq_of_cover 2 _ (fun t _ => flushed5_eq V c t) (cover5)

end Cert.KernelIdeal.Hand

end
-- ==== Proof.KernelRun.lean ====
/-
  The idealized kernel program's run, with its result named.

  The program is ten segments: four stretches of host operations and six kernel regions.  The buffers' contents at
  every segment boundary are a fold from the launch memory ("W0" … "W10").  Read backwards from the result buffer:
  the last region leaves the logarithm of the softmax of its two operands as it finds them; the stretch before it
  computed those operands from the third linear region's result, the two edge rows and the last bias; and so on down
  to the arguments.  A buffer that no later segment writes (the edge rows, the transposed weights, the arguments) still
  holds at a late boundary what the first stretch left in it.  Composed, the result buffer ends holding "net" of the
  eight arguments.
-/
import proofs.«176552_j240518168947_1_alg».proof.Proof.Gen.KernelIdeal.Frame
import proofs.«176552_j240518168947_1_alg».proof.Proof.Net
import proofs.«176552_j240518168947_1_alg».proof.Proof.Region0
import proofs.«176552_j240518168947_1_alg».proof.Proof.Region1
import proofs.«176552_j240518168947_1_alg».proof.Proof.Region2
import proofs.«176552_j240518168947_1_alg».proof.Proof.Region3
import proofs.«176552_j240518168947_1_alg».proof.Proof.Region4
import proofs.«176552_j240518168947_1_alg».proof.Proof.Region5

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What a stretch of host operations leaves -/

/-- None of a stretch's operations writes the buffer in the goal, so the stretch leaves it as it was. -/
local macro "not_written" l:ident : tactic => `(tactic|
  exact StableHlo.after_of_forall_not_mem _ _ (List.forall_iff_forall_mem.mp (by
    simp only [$l:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The first stretch: the two edge rows and the three transposed weights, from any contents. -/
theorem host0_v1 (W : Valuation τ sig (Elt Ideal)) :
    StableHlo.after (hostOps0 (F := Ideal)) W (Proc.devRef .tc main_v1) = src (W (Proc.devRef .tc main_arg1)) := by
  dsimp only [hostOps0]; after_results; rfl
theorem host0_v3 (W : Valuation τ sig (Elt Ideal)) :
    StableHlo.after (hostOps0 (F := Ideal)) W (Proc.devRef .tc main_v3) = dst (W (Proc.devRef .tc main_arg1)) := by
  dsimp only [hostOps0]; after_results; rfl
theorem host0_v4 (W : Valuation τ sig (Elt Ideal)) :
    StableHlo.after (hostOps0 (F := Ideal)) W (Proc.devRef .tc main_v4) = wT64 (W (Proc.devRef .tc main_arg2)) := by
  dsimp only [hostOps0]; after_results; rfl
theorem host0_v5 (W : Valuation τ sig (Elt Ideal)) :
    StableHlo.after (hostOps0 (F := Ideal)) W (Proc.devRef .tc main_v5) = wT64 (W (Proc.devRef .tc main_arg4)) := by
  dsimp only [hostOps0]; after_results; rfl
theorem host0_v6 (W : Valuation τ sig (Elt Ideal)) :
    StableHlo.after (hostOps0 (F := Ideal)) W (Proc.devRef .tc main_v6) = wT7 (W (Proc.devRef .tc main_arg6)) := by
  dsimp only [hostOps0]; after_results; rfl

/-- The three stretches between the regions: the sum along the edges of the linear region's result, and the bias
    as a one-row array, from any contents. -/
theorem host1_v17 (W : Valuation τ sig (Elt Ideal)) :
    StableHlo.after (hostOps1 (F := Ideal)) W (Proc.devRef .tc main_v17)
      = agg64 (W (Proc.devRef .tc main_v7)) (W (Proc.devRef .tc main_v1)) (W (Proc.devRef .tc main_v3)) := by
  dsimp only [hostOps1]; after_results; rfl
theorem host1_v18 (W : Valuation τ sig (Elt Ideal)) :
    StableHlo.after (hostOps1 (F := Ideal)) W (Proc.devRef .tc main_v18) = bRow64 (W (Proc.devRef .tc main_arg3)) := by
  dsimp only [hostOps1]; after_results; rfl
theorem host3_v30 (W : Valuation τ sig (Elt Ideal)) :
    StableHlo.after (hostOps3 (F := Ideal)) W (Proc.devRef .tc main_v30)
      = agg64 (W (Proc.devRef .tc main_v20)) (W (Proc.devRef .tc main_v1)) (W (Proc.devRef .tc main_v3)) := by
  dsimp only [hostOps3]; after_results; rfl
theorem host3_v31 (W : Valuation τ sig (Elt Ideal)) :
    StableHlo.after (hostOps3 (F := Ideal)) W (Proc.devRef .tc main_v31) = bRow64 (W (Proc.devRef .tc main_arg5)) := by
  dsimp only [hostOps3]; after_results; rfl
theorem host5_v43 (W : Valuation τ sig (Elt Ideal)) :
    StableHlo.after (hostOps5 (F := Ideal)) W (Proc.devRef .tc main_v43)
      = agg7 (W (Proc.devRef .tc main_v33)) (W (Proc.devRef .tc main_v1)) (W (Proc.devRef .tc main_v3)) := by
  dsimp only [hostOps5]; after_results; rfl
theorem host5_v44 (W : Valuation τ sig (Elt Ideal)) :
    StableHlo.after (hostOps5 (F := Ideal)) W (Proc.devRef .tc main_v44) = bRow7 (W (Proc.devRef .tc main_arg7)) := by
  dsimp only [hostOps5]; after_results; rfl

/-! ## Buffers that are written once and read late -/

theorem kept_main_v1_W2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem kept_main_v1_W5 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by not_written hostOps1
    _ = W1 m ρ c (Proc.devRef .tc main_v1) := W2_of_ne m ρ c main_v1 (by decide)
theorem kept_main_v1_W8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := by not_written hostOps3
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by not_written hostOps1
    _ = W1 m ρ c (Proc.devRef .tc main_v1) := W2_of_ne m ρ c main_v1 (by decide)
theorem kept_main_v3_W2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem kept_main_v3_W5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by not_written hostOps1
    _ = W1 m ρ c (Proc.devRef .tc main_v3) := W2_of_ne m ρ c main_v3 (by decide)
theorem kept_main_v3_W8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by not_written hostOps3
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by not_written hostOps1
    _ = W1 m ρ c (Proc.devRef .tc main_v3) := W2_of_ne m ρ c main_v3 (by decide)
theorem kept_main_arg3_W2 (c : Dev nD) : W2 m ρ c (Proc.devRef .tc main_arg3) = W1 m ρ c (Proc.devRef .tc main_arg3) :=
  calc W2 m ρ c (Proc.devRef .tc main_arg3)
    _ = W1 m ρ c (Proc.devRef .tc main_arg3) := W2_of_ne m ρ c main_arg3 (by decide)
theorem kept_main_arg5_W5 (c : Dev nD) : W5 m ρ c (Proc.devRef .tc main_arg5) = W1 m ρ c (Proc.devRef .tc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by not_written hostOps1
    _ = W1 m ρ c (Proc.devRef .tc main_arg5) := W2_of_ne m ρ c main_arg5 (by decide)
theorem kept_main_arg7_W8 (c : Dev nD) : W8 m ρ c (Proc.devRef .tc main_arg7) = W1 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by not_written hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by not_written hostOps1
    _ = W1 m ρ c (Proc.devRef .tc main_arg7) := W2_of_ne m ρ c main_arg7 (by decide)
theorem kept_main_v5_W4 (c : Dev nD) : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by not_written hostOps1
    _ = W1 m ρ c (Proc.devRef .tc main_v5) := W2_of_ne m ρ c main_v5 (by decide)
theorem kept_main_v6_W7 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by not_written hostOps3
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by not_written hostOps1
    _ = W1 m ρ c (Proc.devRef .tc main_v6) := W2_of_ne m ρ c main_v6 (by decide)

/-- After the first stretch an argument is as launched. -/
theorem W1_arg (c : Dev nD) (b : Ref sig .tc)
    (h : StableHlo.after (hostOps0 (F := Ideal)) (W0 m ρ c) (Proc.devRef .tc b) = W0 m ρ c (Proc.devRef .tc b)) :
    W1 m ρ c (Proc.devRef .tc b) = m ((c : Thread nD τ).loc b) := h.trans rfl

theorem W1_main_arg0 (c : Dev nD) : W1 m ρ c (Proc.devRef .tc main_arg0) = m ((c : Thread nD τ).loc main_arg0) :=
  W1_arg m ρ c main_arg0 (by not_written hostOps0)
theorem W1_main_arg1 (c : Dev nD) : W1 m ρ c (Proc.devRef .tc main_arg1) = m ((c : Thread nD τ).loc main_arg1) :=
  W1_arg m ρ c main_arg1 (by not_written hostOps0)
theorem W1_main_arg2 (c : Dev nD) : W1 m ρ c (Proc.devRef .tc main_arg2) = m ((c : Thread nD τ).loc main_arg2) :=
  W1_arg m ρ c main_arg2 (by not_written hostOps0)
theorem W1_main_arg3 (c : Dev nD) : W1 m ρ c (Proc.devRef .tc main_arg3) = m ((c : Thread nD τ).loc main_arg3) :=
  W1_arg m ρ c main_arg3 (by not_written hostOps0)
theorem W1_main_arg4 (c : Dev nD) : W1 m ρ c (Proc.devRef .tc main_arg4) = m ((c : Thread nD τ).loc main_arg4) :=
  W1_arg m ρ c main_arg4 (by not_written hostOps0)
theorem W1_main_arg5 (c : Dev nD) : W1 m ρ c (Proc.devRef .tc main_arg5) = m ((c : Thread nD τ).loc main_arg5) :=
  W1_arg m ρ c main_arg5 (by not_written hostOps0)
theorem W1_main_arg6 (c : Dev nD) : W1 m ρ c (Proc.devRef .tc main_arg6) = m ((c : Thread nD τ).loc main_arg6) :=
  W1_arg m ρ c main_arg6 (by not_written hostOps0)
theorem W1_main_arg7 (c : Dev nD) : W1 m ρ c (Proc.devRef .tc main_arg7) = m ((c : Thread nD τ).loc main_arg7) :=
  W1_arg m ρ c main_arg7 (by not_written hostOps0)

/-- The two edge rows after the first stretch. -/
theorem W1_v1 (c : Dev nD) : W1 m ρ c (Proc.devRef .tc main_v1) = src (m ((c : Thread nD τ).loc main_arg1)) :=
  (host0_v1 (W0 m ρ c)).trans rfl
theorem W1_v3 (c : Dev nD) : W1 m ρ c (Proc.devRef .tc main_v3) = dst (m ((c : Thread nD τ).loc main_arg1)) :=
  (host0_v3 (W0 m ρ c)).trans rfl
theorem W1_v4 (c : Dev nD) : W1 m ρ c (Proc.devRef .tc main_v4) = wT64 (m ((c : Thread nD τ).loc main_arg2)) :=
  (host0_v4 (W0 m ρ c)).trans rfl
theorem W1_v5 (c : Dev nD) : W1 m ρ c (Proc.devRef .tc main_v5) = wT64 (m ((c : Thread nD τ).loc main_arg4)) :=
  (host0_v5 (W0 m ρ c)).trans rfl
theorem W1_v6 (c : Dev nD) : W1 m ρ c (Proc.devRef .tc main_v6) = wT7 (m ((c : Thread nD τ).loc main_arg6)) :=
  (host0_v6 (W0 m ρ c)).trans rfl

/-! ## The layers, boundary by boundary -/

/-- The first hidden layer's activations: what region 1 leaves. -/
theorem W4_v19 (c : Dev nD) : W4 m ρ c (Proc.devRef .tc main_v19)
    = hidden (m ((c : Thread nD τ).loc main_arg0)) (src (m ((c : Thread nD τ).loc main_arg1))) (dst (m ((c : Thread nD τ).loc main_arg1)))
        (m ((c : Thread nD τ).loc main_arg2)) (m ((c : Thread nD τ).loc main_arg3)) := by
  have h7 : W2 m ρ c (Proc.devRef .tc main_v7)
      = GcnSpec.lin (m ((c : Thread nD τ).loc main_arg0)) (wT64 (m ((c : Thread nD τ).loc main_arg2))) := by
    refine ((W2_arr m ρ c 2).trans (final0 (V1 m ρ) c)).trans ?_
    show GcnSpec.lin (W1 m ρ c (Proc.devRef .tc main_arg0)) (W1 m ρ c (Proc.devRef .tc main_v4)) = _
    rw [W1_main_arg0, W1_v4]
  have h17 : W3 m ρ c (Proc.devRef .tc main_v17)
      = agg64 (GcnSpec.lin (m ((c : Thread nD τ).loc main_arg0)) (wT64 (m ((c : Thread nD τ).loc main_arg2))))
          (src (m ((c : Thread nD τ).loc main_arg1))) (dst (m ((c : Thread nD τ).loc main_arg1))) := by
    refine (host1_v17 (W2 m ρ c)).trans ?_
    rw [h7, kept_main_v1_W2, kept_main_v3_W2, W1_v1, W1_v3]
  have h18 : W3 m ρ c (Proc.devRef .tc main_v18) = bRow64 (m ((c : Thread nD τ).loc main_arg3)) := by
    refine (host1_v18 (W2 m ρ c)).trans ?_
    rw [kept_main_arg3_W2, W1_main_arg3]
  refine ((W4_arr m ρ c 2).trans (final1 (V3 m ρ) c)).trans ?_
  show GcnSpec.relu (W3 m ρ c (Proc.devRef .tc main_v17)) (W3 m ρ c (Proc.devRef .tc main_v18)) = _
  rw [h17, h18]
  rfl

/-- The second hidden layer's activations: what region 3 leaves. -/
theorem W7_v32 (c : Dev nD) : W7 m ρ c (Proc.devRef .tc main_v32)
    = hidden (W4 m ρ c (Proc.devRef .tc main_v19)) (src (m ((c : Thread nD τ).loc main_arg1))) (dst (m ((c : Thread nD τ).loc main_arg1)))
        (m ((c : Thread nD τ).loc main_arg4)) (m ((c : Thread nD τ).loc main_arg5)) := by
  have h20 : W5 m ρ c (Proc.devRef .tc main_v20)
      = GcnSpec.lin (W4 m ρ c (Proc.devRef .tc main_v19)) (wT64 (m ((c : Thread nD τ).loc main_arg4))) := by
    refine ((W5_arr m ρ c 2).trans (final2 (V4 m ρ) c)).trans ?_
    show GcnSpec.lin (W4 m ρ c (Proc.devRef .tc main_v19)) (W4 m ρ c (Proc.devRef .tc main_v5)) = _
    rw [kept_main_v5_W4, W1_v5]
  have h30 : W6 m ρ c (Proc.devRef .tc main_v30)
      = agg64 (GcnSpec.lin (W4 m ρ c (Proc.devRef .tc main_v19)) (wT64 (m ((c : Thread nD τ).loc main_arg4))))
          (src (m ((c : Thread nD τ).loc main_arg1))) (dst (m ((c : Thread nD τ).loc main_arg1))) := by
    refine (host3_v30 (W5 m ρ c)).trans ?_
    rw [h20, kept_main_v1_W5, kept_main_v3_W5, W1_v1, W1_v3]
  have h31 : W6 m ρ c (Proc.devRef .tc main_v31) = bRow64 (m ((c : Thread nD τ).loc main_arg5)) := by
    refine (host3_v31 (W5 m ρ c)).trans ?_
    rw [kept_main_arg5_W5, W1_main_arg5]
  refine ((W7_arr m ρ c 2).trans (final3 (V6 m ρ) c)).trans ?_
  show GcnSpec.relu (W6 m ρ c (Proc.devRef .tc main_v30)) (W6 m ρ c (Proc.devRef .tc main_v31)) = _
  rw [h30, h31]
  rfl

/-- The result: what region 5 leaves. -/
theorem W10_v45 (c : Dev nD) : W10 m ρ c (Proc.devRef .tc main_v45)
    = output (W7 m ρ c (Proc.devRef .tc main_v32)) (src (m ((c : Thread nD τ).loc main_arg1))) (dst (m ((c : Thread nD τ).loc main_arg1)))
        (m ((c : Thread nD τ).loc main_arg6)) (m ((c : Thread nD τ).loc main_arg7)) := by
  have h33 : W8 m ρ c (Proc.devRef .tc main_v33)
      = GcnSpec.lin (W7 m ρ c (Proc.devRef .tc main_v32)) (wT7 (m ((c : Thread nD τ).loc main_arg6))) := by
    refine ((W8_arr m ρ c 2).trans (final4 (V7 m ρ) c)).trans ?_
    show GcnSpec.lin (W7 m ρ c (Proc.devRef .tc main_v32)) (W7 m ρ c (Proc.devRef .tc main_v6)) = _
    rw [kept_main_v6_W7, W1_v6]
  have h43 : W9 m ρ c (Proc.devRef .tc main_v43)
      = agg7 (GcnSpec.lin (W7 m ρ c (Proc.devRef .tc main_v32)) (wT7 (m ((c : Thread nD τ).loc main_arg6))))
          (src (m ((c : Thread nD τ).loc main_arg1))) (dst (m ((c : Thread nD τ).loc main_arg1))) := by
    refine (host5_v43 (W8 m ρ c)).trans ?_
    rw [h33, kept_main_v1_W8, kept_main_v3_W8, W1_v1, W1_v3]
  have h44 : W9 m ρ c (Proc.devRef .tc main_v44) = bRow7 (m ((c : Thread nD τ).loc main_arg7)) := by
    refine (host5_v44 (W8 m ρ c)).trans ?_
    rw [kept_main_arg7_W8, W1_main_arg7]
  refine ((W10_arr m ρ c 2).trans (final5 (V9 m ρ) c)).trans ?_
  show GcnSpec.lsm (W9 m ρ c (Proc.devRef .tc main_v43)) (W9 m ρ c (Proc.devRef .tc main_v44)) = _
  rw [h43, h44]
  rfl

/-- The result buffer at the last boundary holds the network of the eight arguments. -/
theorem W10_result (c : Dev nD) : W10 m ρ c (Proc.devRef .tc main_v45) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W10_v45, W7_v32, W4_v19]
  rfl

/-! ## The run -/

-- the launch theorem's implicit arguments are found by unifying its conclusion with this one, which takes unfolding
-- plain definitions in a metavariable's type
set_option backward.isDefEq.respectTransparency.types false in
/-- Every weakly fair execution of the idealized kernel program terminates, nothing faulting, with the result buffer
    at the network of the arguments and the arguments as launched: the launch over the ten segments, the last thread
    state read against the final memory, the result by "W10_result", each argument walked back to the launch. -/
theorem run : θ_run (defs (F := Ideal)) (onTc (τ := τ) (main (F := Ideal))) ⟨m, fun _ => 0, ρ⟩ (fun r => ∀ c : Dev nD,
      r.2.mem ((c.tc : Thread nD τ).loc main_v45) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v45 (by decide))).trans (W10_result m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Hand

end
-- ==== Proof.RefRun.lean ====
/-
  The reference program's run, read back as the network of its eight arguments.

  The program is a straight line of 79 host operations.  It is cut into four consecutive parts: the two rows of the
  edge list (the source and the destination node of every edge, computed once), and the three layers.  A layer reads
  the previous layer's result, the two edge rows, and its own weight matrix and bias vector, and nothing else; so
  each part is run from ARBITRARY buffer contents "V", and its result buffer is shown to hold one function of the
  few buffers it reads, while every buffer it does not write keeps its contents.  Composing the four parts then
  never builds a term larger than one layer.

  A hidden layer as the host spells it is: the rows times the transposed weight matrix (a dot_general contracting
  one axis, which is the row-wise linear layer), the sum along the edges (negative node numbers wrapped once, source
  rows gathered, scatter-added onto the destination rows of a zero array: carried as one name, never opened), the
  bias broadcast in two steps and added, and the maximum with a broadcast zero.  The output layer replaces the
  maximum by the logarithm of the softmax along each row: the row minus its maximum, minus the logarithm of the sum
  of the exponentials of that difference.  These are the layers "hidden" and "output" of the network the kernel
  program is read back as, spelt over this program's own shape names and dimension records; the two spellings name
  the same literal shapes and records with the same fields, so they agree once the operands are variables.
-/
import proofs.«176552_j240518168947_1_alg».proof.Proof.RefRunP
import proofs.«176552_j240518168947_1_alg».proof.Proof.Net
import proofs.«176552_j240518168947_1_alg».proof.Proof.LibRowOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two rows of the edge list, each cut out and flattened. -/
abbrev L0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]
/-- The first hidden layer. -/
abbrev L1 : List (HloOp τ sig (Elt F)) :=
  [ unary main_arg2 main_v4 ((transpose S64x64 [1, 0] · transposes_S64x64_S64x64_1_0) : (⟨S64x64, .f32⟩ : BufTy).Contents (Elt F) → (⟨S64x64, .f32⟩ : BufTy).Contents (Elt F)),
    binary main_arg0 main_v4 main_v5 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c (constantI S_ 32 0#32),
    unary main_c main_v6 (broadcastInDim S1600000 ![] bcast_S_S1600000 : (⟨S_, .i32⟩ : BufTy).Contents (Elt F) → (⟨S1600000, .i32⟩ : BufTy).Contents (Elt F)),
    binary main_v1 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v8 (broadcastInDim S1600000 ![] bcast_S_S1600000 : (⟨S_, .i32⟩ : BufTy).Contents (Elt F) → (⟨S1600000, .i32⟩ : BufTy).Contents (Elt F)),
    binary main_v1 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_v1 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    binary main_v5 main_v11 main_v12 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v13 (broadcastInDim S50000x64 ![] bcast_S_S50000x64 : (⟨S_, .f32⟩ : BufTy).Contents (Elt F) → (⟨S50000x64, .f32⟩ : BufTy).Contents (Elt F)),
    unary main_v3 main_v14 (broadcastInDim S1600000x1 ![0] bcast_S1600000_S1600000x1_0 : (⟨S1600000, .i32⟩ : BufTy).Contents (Elt F) → (⟨S1600000x1, .i32⟩ : BufTy).Contents (Elt F)),
    ternary main_v13 main_v14 main_v12 main_v15 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v18) (TRef.of (T := ⟨S50000x64, .f32⟩) main_call0_v0) (TRef.of (T := ⟨S50000x64, .f32⟩) main_v19) maximumf ]
/-- The second hidden layer. -/
abbrev L2 : List (HloOp τ sig (Elt F)) :=
  [ unary main_arg4 main_v20 ((transpose S64x64 [1, 0] · transposes_S64x64_S64x64_1_0) : (⟨S64x64, .f32⟩ : BufTy).Contents (Elt F) → (⟨S64x64, .f32⟩ : BufTy).Contents (Elt F)),
    binary main_v19 main_v20 main_v21 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_1 (constantI S_ 32 0#32),
    unary main_c_1 main_v22 (broadcastInDim S1600000 ![] bcast_S_S1600000 : (⟨S_, .i32⟩ : BufTy).Contents (Elt F) → (⟨S1600000, .i32⟩ : BufTy).Contents (Elt F)),
    binary main_v1 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v24 (broadcastInDim S1600000 ![] bcast_S_S1600000 : (⟨S_, .i32⟩ : BufTy).Contents (Elt F) → (⟨S1600000, .i32⟩ : BufTy).Contents (Elt F)),
    binary main_v1 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v21 main_v27 main_v28 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_3 (constant S_ .f32 0x00000000#32),
    unary main_cst_3 main_v29 (broadcastInDim S50000x64 ![] bcast_S_S50000x64 : (⟨S_, .f32⟩ : BufTy).Contents (Elt F) → (⟨S50000x64, .f32⟩ : BufTy).Contents (Elt F)),
    unary main_v3 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_arg5 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v31 main_v33 main_v34 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v34) (TRef.of (T := ⟨S50000x64, .f32⟩) main_call1_v0) (TRef.of (T := ⟨S50000x64, .f32⟩) main_v35) maximumf ]
/-- The output layer up to the bias: what its logarithm of the softmax is fed. -/
abbrev L3a : List (HloOp τ sig (Elt F)) :=
  [ unary main_arg6 main_v36 ((transpose S64x7 [1, 0] · transposes_S7x64_S64x7_1_0) : (⟨S7x64, .f32⟩ : BufTy).Contents (Elt F) → (⟨S64x7, .f32⟩ : BufTy).Contents (Elt F)),
    binary main_v35 main_v36 main_v37 ((fun l r => Host.dotGeneral dot_S50000x64_S64x7_S50000x7_1_0_0_1_n_n none l r) : (⟨S50000x64, .f32⟩ : BufTy).Contents (Elt F) → (⟨S64x7, .f32⟩ : BufTy).Contents (Elt F) → (⟨S50000x7, .f32⟩ : BufTy).Contents (Elt F)),
    nullary main_c_4 (constantI S_ 32 0#32),
    unary main_c_4 main_v38 (broadcastInDim S1600000 ![] bcast_S_S1600000 : (⟨S_, .i32⟩ : BufTy).Contents (Elt F) → (⟨S1600000, .i32⟩ : BufTy).Contents (Elt F)),
    binary main_v1 main_v38 main_v39 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v40 (broadcastInDim S1600000 ![] bcast_S_S1600000 : (⟨S_, .i32⟩ : BufTy).Contents (Elt F) → (⟨S1600000, .i32⟩ : BufTy).Contents (Elt F)),
    binary main_v1 main_v40 main_v41 (addi : (⟨S1600000, .i32⟩ : BufTy).Contents (Elt F) → (⟨S1600000, .i32⟩ : BufTy).Contents (Elt F) → (⟨S1600000, .i32⟩ : BufTy).Contents (Elt F)),
    ternary main_v39 main_v41 main_v1 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v42 main_v43 (broadcastInDim S1600000x1 ![0] bcast_S1600000_S1600000x1_0 : (⟨S1600000, .i32⟩ : BufTy).Contents (Elt F) → (⟨S1600000x1, .i32⟩ : BufTy).Contents (Elt F)),
    binary main_v37 main_v43 main_v44 ((fun x i => Host.gather gather_S50000x7_S1600000x1_S1600000x7_1_0_n_n_0_1_17 x i) : (⟨S50000x7, .f32⟩ : BufTy).Contents (Elt F) → (⟨S1600000x1, .i32⟩ : BufTy).Contents (Elt F) → (⟨S1600000x7, .f32⟩ : BufTy).Contents (Elt F)),
    nullary main_cst_6 (constant S_ .f32 0x00000000#32),
    unary main_cst_6 main_v45 (broadcastInDim S50000x7 ![] bcast_S_S50000x7 : (⟨S_, .f32⟩ : BufTy).Contents (Elt F) → (⟨S50000x7, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S50000x7_S1600000x1_S1600000x7_1_0_0_1 x i u) : (⟨S50000x7, .f32⟩ : BufTy).Contents (Elt F) → (⟨S1600000x1, .i32⟩ : BufTy).Contents (Elt F) → (⟨S1600000x7, .f32⟩ : BufTy).Contents (Elt F) → (⟨S50000x7, .f32⟩ : BufTy).Contents (Elt F)),
    unary main_arg7 main_v48 (broadcastInDim S1x7 ![1] bcast_S7_S1x7_1 : (⟨S7, .f32⟩ : BufTy).Contents (Elt F) → (⟨S1x7, .f32⟩ : BufTy).Contents (Elt F)),
    unary main_v48 main_v49 (broadcastInDim S50000x7 ![0, 1] bcast_S1x7_S50000x7_0_1 : (⟨S1x7, .f32⟩ : BufTy).Contents (Elt F) → (⟨S50000x7, .f32⟩ : BufTy).Contents (Elt F)),
    binary main_v47 main_v49 main_v50 (addf : (⟨S50000x7, .f32⟩ : BufTy).Contents (Elt F) → (⟨S50000x7, .f32⟩ : BufTy).Contents (Elt F) → (⟨S50000x7, .f32⟩ : BufTy).Contents (Elt F)) ]
/-- The output layer's logarithm of the softmax along each row. -/
abbrev L3b : List (HloOp τ sig (Elt F)) :=
  [ TRef.nullary (TRef.of (T := ⟨S_, .f32⟩) main_call2_cst) (constant S_ .f32 0xFF800000#32),
    TRef.binary (TRef.of (T := ⟨S50000x7, .f32⟩) main_v50) (TRef.of (T := ⟨S_, .f32⟩) main_call2_cst) (TRef.of (T := ⟨S50000, .f32⟩) main_call2_v0) (fun x v => Host.reduce FloatOps.maximumf x v reducesTo_S50000x7_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x7, .f32⟩) main_call2_v4) (broadcastInDim S50000x7 ![0, 1] bcast_S50000x1_S50000x7_0_1),
    TRef.binary (TRef.of (T := ⟨S50000x7, .f32⟩) main_v50) (TRef.of (T := ⟨S50000x7, .f32⟩) main_call2_v4) (TRef.of (T := ⟨S50000x7, .f32⟩) main_call2_v5) subf,
    TRef.unary (TRef.of (T := ⟨S50000x7, .f32⟩) main_call2_v5) (TRef.of (T := ⟨S50000x7, .f32⟩) main_call2_v6) Host.exp,
    TRef.nullary (TRef.of (T := ⟨S_, .f32⟩) main_call2_cst_1) (constant S_ .f32 0x00000000#32),
    TRef.binary (TRef.of (T := ⟨S50000x7, .f32⟩) main_call2_v6) (TRef.of (T := ⟨S_, .f32⟩) main_call2_cst_1) (TRef.of (T := ⟨S50000, .f32⟩) main_call2_v7) (fun x v => Host.reduceAdd x v reducesTo_S50000x7_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x7, .f32⟩) main_call2_v10) (broadcastInDim S50000x7 ![0, 1] bcast_S50000x1_S50000x7_0_1),
    TRef.binary (TRef.of (T := ⟨S50000x7, .f32⟩) main_call2_v5) (TRef.of (T := ⟨S50000x7, .f32⟩) main_call2_v10) (TRef.of (T := ⟨S50000x7, .f32⟩) main_v51) subf ]

/-- Float and integer arrays. -/
abbrev F32 (F : FTy → Type) (s : Shape) : Type := FVec F s .f32
abbrev I32 (s : Shape) : Type := IVec s 32

/-- Row 0 and row 1 of the edge list, flattened: the source and the destination node of every edge. -/
def srcHost (e : I32 S2x1600000) : I32 S1600000 :=
  shapeCast _ (extractStridedSlice S1x1600000 ![0, 0] e slices_S2x1600000_S1x1600000_0_0) shapeCasts_S1x1600000_S1600000
def dstHost (e : I32 S2x1600000) : I32 S1600000 :=
  shapeCast _ (extractStridedSlice S1x1600000 ![1, 0] e slices_S2x1600000_S1x1600000_1_0) shapeCasts_S1x1600000_S1600000

/-- The sum along the edges of 64-wide rows, as this program spells it: negative source numbers wrapped once, the
    source rows gathered, and scatter-added onto the destination rows of a zero array. -/
def aggHost64 (h : F32 F S50000x64) (s d : I32 S1600000) : F32 F S50000x64 :=
  Host.scatterAdd (F := F) scatter_S50000x64_S1600000x1_S1600000x64_1_0_0_1
    (broadcastInDim S50000x64 ![] bcast_S_S50000x64 (constant (F := F) S_ .f32 0x00000000#32))
    (broadcastInDim S1600000x1 ![0] bcast_S1600000_S1600000x1_0 d)
    (Host.gather gather_S50000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 50000#32))) s)))

/-- The same for 7-wide rows. -/
def aggHost7 (h : F32 F S50000x7) (s d : I32 S1600000) : F32 F S50000x7 :=
  Host.scatterAdd (F := F) scatter_S50000x7_S1600000x1_S1600000x7_1_0_0_1
    (broadcastInDim S50000x7 ![] bcast_S_S50000x7 (constant (F := F) S_ .f32 0x00000000#32))
    (broadcastInDim S1600000x1 ![0] bcast_S1600000_S1600000x1_0 d)
    (Host.gather gather_S50000x7_S1600000x1_S1600000x7_1_0_n_n_0_1_17 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 50000#32))) s)))

/-- A hidden layer as this program spells it: the rows times the transposed weights, the sum along the edges, the
    bias broadcast in two steps and added, the maximum with a broadcast zero. -/
def hiddenHost (x : F32 F S50000x64) (s d : I32 S1600000) (W : F32 F S64x64) (b : F32 F S64) : F32 F S50000x64 :=
  maximumf
    (addf (aggHost64 (Host.dotGeneral (F := F) dot_S50000x64_S64x64_S50000x64_1_0_0_1_n_n none x
        (transpose S64x64 [1, 0] W transposes_S64x64_S64x64_1_0)) s d)
      (broadcastInDim S50000x64 ![0, 1] bcast_S1x64_S50000x64_0_1 (broadcastInDim S1x64 ![1] bcast_S64_S1x64_1 b)))
    (broadcastInDim S50000x64 ![] bcast_S_S50000x64 (constant (F := F) S_ .f32 0x00000000#32))

/-- What the output layer feeds its logarithm of the softmax: the rows times the transposed weights, the sum along
    the edges, the bias added. -/
def logitsHost (x : F32 F S50000x64) (s d : I32 S1600000) (W : F32 F S7x64) (b : F32 F S7) : F32 F S50000x7 :=
  addf (aggHost7 (Host.dotGeneral (F := F) dot_S50000x64_S64x7_S50000x7_1_0_0_1_n_n none x
      (transpose S64x7 [1, 0] W transposes_S7x64_S64x7_1_0)) s d)
    (broadcastInDim S50000x7 ![0, 1] bcast_S1x7_S50000x7_0_1 (broadcastInDim S1x7 ![1] bcast_S7_S1x7_1 b))

/-- A row shifted by its maximum, as this program spells it: the reduced maximum taken once more against minus
    infinity, then put back beside the rows by two broadcasts. -/
def shiftedHost (y : F32 F S50000x7) : F32 F S50000x7 :=
  subf y (broadcastInDim S50000x7 ![0, 1] bcast_S50000x1_S50000x7_0_1
    (broadcastInDim S50000x1 ![0] bcast_S50000_S50000x1_0
      (maximumf (broadcastInDim S50000 ![] bcast_S_S50000 (constant (F := F) S_ .f32 0xFF800000#32))
        (Host.reduce FloatOps.maximumf y (constant (F := F) S_ .f32 0xFF800000#32) reducesTo_S50000x7_S50000_d1 h_S_))))

/-- The logarithm of the softmax as this program spells it: the shifted row minus the logarithm of the sum of its
    exponentials, that logarithm put back beside the rows. -/
def logSoftmaxHost (y : F32 F S50000x7) : F32 F S50000x7 :=
  subf (shiftedHost y) (broadcastInDim S50000x7 ![0, 1] bcast_S50000x1_S50000x7_0_1
    (Host.log (broadcastInDim S50000x1 ![0] bcast_S50000_S50000x1_0
      (Host.reduceAdd (Host.exp (shiftedHost y)) (constant (F := F) S_ .f32 0x00000000#32) reducesTo_S50000x7_S50000_d1 h_S_))))

/-! ## The two spellings agree

The kernel-side network is spelt over that program's own shape names and records, this one over its own; the names
stand for the same literal shapes and the records have the same fields, so a term of one spelling is a term of the
other once its operands are variables. -/

theorem srcHost_eq (e : I32 S2x1600000) : srcHost e = Cert.KernelIdeal.Hand.src e := rfl
theorem dstHost_eq (e : I32 S2x1600000) : dstHost e = Cert.KernelIdeal.Hand.dst e := rfl
theorem aggHost64_eq (h : F32 Ideal S50000x64) (s d : I32 S1600000) : aggHost64 h s d = Cert.KernelIdeal.Hand.agg64 h s d := rfl
theorem aggHost7_eq (h : F32 Ideal S50000x7) (s d : I32 S1600000) : aggHost7 h s d = Cert.KernelIdeal.Hand.agg7 h s d := rfl

/-- The four coordinate facts of a rank-2 product with one contracted axis, for the two products of this program. -/
theorem dot64_l0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
theorem dot64_l1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem dot64_r0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem dot64_r1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl
theorem dot7_l0 (i : S50000x7.Idx) (q : dot_S50000x64_S64x7_S50000x7_1_0_0_1_n_n.contr.Idx) :
    (dot_S50000x64_S64x7_S50000x7_1_0_0_1_n_n.lhsIdx i q 0).val = (i 0).val := by
  unfold DotDims.lhsIdx
  rw [dif_neg (show ¬(0 : Fin S50000x64.rank) ∈ dot_S50000x64_S64x7_S50000x7_1_0_0_1_n_n.lhsBatch by decide),
    dif_pos (show (0 : Fin S50000x64.rank) ∈ dot_S50000x64_S64x7_S50000x7_1_0_0_1_n_n.lhsNonContracting by decide)]
  rfl
theorem dot7_l1 (i : S50000x7.Idx) (q : dot_S50000x64_S64x7_S50000x7_1_0_0_1_n_n.contr.Idx) :
    (dot_S50000x64_S64x7_S50000x7_1_0_0_1_n_n.lhsIdx i q 1).val = (q ⟨0, by decide⟩).val :=
  dot_S50000x64_S64x7_S50000x7_1_0_0_1_n_n.lhsIdx_val_of_single rfl i q
theorem dot7_r0 (i : S50000x7.Idx) (q : dot_S50000x64_S64x7_S50000x7_1_0_0_1_n_n.contr.Idx) :
    (dot_S50000x64_S64x7_S50000x7_1_0_0_1_n_n.rhsIdx i q 0).val = (q ⟨0, by decide⟩).val :=
  dot_S50000x64_S64x7_S50000x7_1_0_0_1_n_n.rhsIdx_val_of_single rfl i q
theorem dot7_r1 (i : S50000x7.Idx) (q : dot_S50000x64_S64x7_S50000x7_1_0_0_1_n_n.contr.Idx) :
    (dot_S50000x64_S64x7_S50000x7_1_0_0_1_n_n.rhsIdx i q 1).val = (i 1).val := by
  unfold DotDims.rhsIdx
  rw [dif_neg (show ¬(1 : Fin S64x7.rank) ∈ dot_S50000x64_S64x7_S50000x7_1_0_0_1_n_n.rhsBatch by decide),
    dif_pos (show (1 : Fin S64x7.rank) ∈ dot_S50000x64_S64x7_S50000x7_1_0_0_1_n_n.rhsNonContracting by decide)]
  rfl

/-- The host's product against the transposed weights is the linear layer over the kernel-side transpose. -/
theorem lin64_eq (x : F32 Ideal S50000x64) (W : F32 Ideal S64x64) :
    Host.dotGeneral (F := Ideal) dot_S50000x64_S64x64_S50000x64_1_0_0_1_n_n none x (transpose S64x64 [1, 0] W transposes_S64x64_S64x64_1_0)
      = GcnSpec.lin x (Cert.KernelIdeal.Hand.wT64 W) := by
  simp only [Host.dotGeneral]
  exact GcnOps.dotGeneral_eq_lin (n := 50000) (k := 64) (q := 64) dot_S50000x64_S64x64_S50000x64_1_0_0_1_n_n none .single rfl rfl
    dot64_l0 dot64_l1 dot64_r0 dot64_r1 x _

theorem lin7_eq (x : F32 Ideal S50000x64) (W : F32 Ideal S7x64) :
    Host.dotGeneral (F := Ideal) dot_S50000x64_S64x7_S50000x7_1_0_0_1_n_n none x (transpose S64x7 [1, 0] W transposes_S7x64_S64x7_1_0)
      = GcnSpec.lin x (Cert.KernelIdeal.Hand.wT7 W) := by
  simp only [Host.dotGeneral]
  exact GcnOps.dotGeneral_eq_lin (n := 50000) (k := 64) (q := 7) dot_S50000x64_S64x7_S50000x7_1_0_0_1_n_n none .single rfl rfl
    dot7_l0 dot7_l1 dot7_r0 dot7_r1 x _

/-- A hidden layer: the host's spelling is the kernel-side layer. -/
theorem hiddenHost_eq (x : F32 Ideal S50000x64) (s d : I32 S1600000) (W : F32 Ideal S64x64) (b : F32 Ideal S64) :
    hiddenHost (F := Ideal) x s d W b = Cert.KernelIdeal.Hand.hidden x s d W b := by
  show hiddenHost x s d W b = GcnSpec.relu (Cert.KernelIdeal.Hand.agg64 (GcnSpec.lin x (Cert.KernelIdeal.Hand.wT64 W)) s d)
    (Cert.KernelIdeal.Hand.bRow64 b)
  unfold hiddenHost
  rw [lin64_eq, aggHost64_eq]
  generalize Cert.KernelIdeal.Hand.agg64 (GcnSpec.lin x (Cert.KernelIdeal.Hand.wT64 W)) s d = a
  exact GcnOps.relu_host (n := 50000) (k := 64) a b bcast_S64_S1x64_1 bcast_S1x64_S50000x64_0_1 bcast_S_S50000x64 _

/-- The output layer: the host's spelling is the kernel-side layer. -/
theorem output_eq (x : F32 Ideal S50000x64) (s d : I32 S1600000) (W : F32 Ideal S7x64) (b : F32 Ideal S7) :
    logSoftmaxHost (F := Ideal) (logitsHost x s d W b) = Cert.KernelIdeal.Hand.output x s d W b := by
  show logSoftmaxHost (logitsHost x s d W b) = GcnSpec.lsm (Cert.KernelIdeal.Hand.agg7 (GcnSpec.lin x (Cert.KernelIdeal.Hand.wT7 W)) s d)
    (Cert.KernelIdeal.Hand.bRow7 b)
  unfold logitsHost
  rw [lin7_eq, aggHost7_eq]
  generalize Cert.KernelIdeal.Hand.agg7 (GcnSpec.lin x (Cert.KernelIdeal.Hand.wT7 W)) s d = a
  refine (GcnOps.logSoftmax_host (n := 50000) (k := 7) _ reducesTo_S50000x7_S50000_d1 (by decide) h_S_ bcast_S_S50000
    bcast_S50000_S50000x1_0 bcast_S50000x1_S50000x7_0_1).trans ?_
  exact GcnOps.lsm_host (n := 50000) (k := 7) a b bcast_S7_S1x7_1 bcast_S1x7_S50000x7_0_1 _

/-! ## Each part, run from any contents

"after L V" is what the buffers hold once the operations of "L" have run from the contents "V".  A part leaves
every buffer it does not write as it was, and its result buffer holds the part's function of the buffers it reads. -/

theorem after_app {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

set_option maxRecDepth 8192 in
theorem ops_eq : (ValueP.ops (F := F)) = L0 ++ (L1 ++ (L2 ++ (L3a ++ L3b))) := rfl

theorem after_ops (V : Valuation τ sig (Elt F)) :
    after ValueP.ops V = after L3b (after L3a (after L2 (after L1 (after L0 V)))) := by
  rw [ops_eq, after_app, after_app, after_app, after_app]

/-- The first part writes only its own four buffers. -/
theorem keep_L0 (V : Valuation τ sig (Elt F)) (r : Ref sig .tc)
    (hr : r ∉ ([main_v0, main_v1, main_v2, main_v3] : List (Ref sig .tc))) :
    after L0 V (Proc.devRef .tc r) = V (Proc.devRef .tc r) :=
  after_of_writes_sub L0 V (by
    simp only [List.Forall, nullary_writes, unary_writes, binary_writes, ternary_writes, reshape_writes,
      Finset.singleton_subset_iff, List.mem_toFinset, List.mem_map]
    repeat' apply And.intro
    all_goals exact ⟨_, by decide, rfl⟩) hr
/-- The first hidden layer writes only its own buffers. -/
theorem keep_L1 (V : Valuation τ sig (Elt F)) (r : Ref sig .tc)
    (hr : r ∉ ([main_v4, main_v5, main_c, main_v6, main_v7, main_c_0, main_v8, main_v9, main_v10, main_v11, main_v12, main_cst, main_v13, main_v14, main_v15, main_v16, main_v17, main_v18, main_call0_cst, main_call0_v0, main_v19] : List (Ref sig .tc))) :
    after L1 V (Proc.devRef .tc r) = V (Proc.devRef .tc r) :=
  after_of_writes_sub L1 V (by
    simp only [List.Forall, nullary_writes, unary_writes, binary_writes, ternary_writes, reshape_writes,
      Finset.singleton_subset_iff, List.mem_toFinset, List.mem_map]
    repeat' apply And.intro
    all_goals exact ⟨_, by decide, rfl⟩) hr
/-- The second hidden layer writes only its own buffers. -/
theorem keep_L2 (V : Valuation τ sig (Elt F)) (r : Ref sig .tc)
    (hr : r ∉ ([main_v20, main_v21, main_c_1, main_v22, main_v23, main_c_2, main_v24, main_v25, main_v26, main_v27, main_v28, main_cst_3, main_v29, main_v30, main_v31, main_v32, main_v33, main_v34, main_call1_cst, main_call1_v0, main_v35] : List (Ref sig .tc))) :
    after L2 V (Proc.devRef .tc r) = V (Proc.devRef .tc r) :=
  after_of_writes_sub L2 V (by
    simp only [List.Forall, nullary_writes, unary_writes, binary_writes, ternary_writes, reshape_writes,
      Finset.singleton_subset_iff, List.mem_toFinset, List.mem_map]
    repeat' apply And.intro
    all_goals exact ⟨_, by decide, rfl⟩) hr
/-- The output layer up to the bias writes only its own buffers. -/
theorem keep_L3a (V : Valuation τ sig (Elt F)) (r : Ref sig .tc)
    (hr : r ∉ ([main_v36, main_v37, main_c_4, main_v38, main_v39, main_c_5, main_v40, main_v41, main_v42, main_v43, main_v44, main_cst_6, main_v45, main_v46, main_v47, main_v48, main_v49, main_v50] : List (Ref sig .tc))) :
    after L3a V (Proc.devRef .tc r) = V (Proc.devRef .tc r) :=
  after_of_writes_sub L3a V (by
    simp only [List.Forall, nullary_writes, unary_writes, binary_writes, ternary_writes, reshape_writes,
      Finset.singleton_subset_iff, List.mem_toFinset, List.mem_map]
    repeat' apply And.intro
    all_goals exact ⟨_, by decide, rfl⟩) hr
/-- The logarithm of the softmax writes only its own buffers. -/
theorem keep_L3b (V : Valuation τ sig (Elt F)) (r : Ref sig .tc)
    (hr : r ∉ ([main_call2_cst, main_call2_v0, main_call2_cst_0, main_call2_v1, main_call2_v2, main_call2_v3, main_call2_v4, main_call2_v5, main_call2_v6, main_call2_cst_1, main_call2_v7, main_call2_v8, main_call2_v9, main_call2_v10, main_v51] : List (Ref sig .tc))) :
    after L3b V (Proc.devRef .tc r) = V (Proc.devRef .tc r) :=
  after_of_writes_sub L3b V (by
    simp only [List.Forall, nullary_writes, unary_writes, binary_writes, ternary_writes, reshape_writes,
      Finset.singleton_subset_iff, List.mem_toFinset, List.mem_map]
    repeat' apply And.intro
    all_goals exact ⟨_, by decide, rfl⟩) hr

/-! ## What each part computes

An operation of a called function carries its operands to the buffers' own types and back; the round trip is the
identity, and what is left is the part's function by unfolding. -/

/-- A value moved to a buffer's own type and back is the value. -/
theorem ofBuf_toBuf {sg : RefSig} {Val : EltTy → Type} {T : BufTy} (x : TRef sg T) (v : T.Contents Val) :
    x.ofBuf (Val := Val) (x.toBuf v) = v := by
  obtain ⟨r, h, hd, hu⟩ := x
  subst h
  rfl

theorem L0_v1 (V : Valuation τ sig (Elt F)) :
    after L0 V (Proc.devRef .tc main_v1) = srcHost (V (Proc.devRef .tc main_arg1)) := by
  after_results_simp
  rfl

theorem L0_v3 (V : Valuation τ sig (Elt F)) :
    after L0 V (Proc.devRef .tc main_v3) = dstHost (V (Proc.devRef .tc main_arg1)) := by
  after_results_simp
  rfl

theorem L1_out (V : Valuation τ sig (Elt F)) :
    after L1 V (Proc.devRef .tc main_v19)
      = hiddenHost (V (Proc.devRef .tc main_arg0)) (V (Proc.devRef .tc main_v1)) (V (Proc.devRef .tc main_v3))
          (V (Proc.devRef .tc main_arg2)) (V (Proc.devRef .tc main_arg3)) := by
  after_results_simp
  simp only [ofBuf_toBuf]
  rfl

theorem L2_out (V : Valuation τ sig (Elt F)) :
    after L2 V (Proc.devRef .tc main_v35)
      = hiddenHost (V (Proc.devRef .tc main_v19)) (V (Proc.devRef .tc main_v1)) (V (Proc.devRef .tc main_v3))
          (V (Proc.devRef .tc main_arg4)) (V (Proc.devRef .tc main_arg5)) := by
  after_results_simp
  simp only [ofBuf_toBuf]
  rfl

theorem L3a_out (V : Valuation τ sig (Elt F)) :
    after L3a V (Proc.devRef .tc main_v50)
      = logitsHost (V (Proc.devRef .tc main_v35)) (V (Proc.devRef .tc main_v1)) (V (Proc.devRef .tc main_v3))
          (V (Proc.devRef .tc main_arg6)) (V (Proc.devRef .tc main_arg7)) := by
  after_results_simp
  rfl

theorem L3b_out (V : Valuation τ sig (Elt F)) :
    after L3b V (Proc.devRef .tc main_v51) = logSoftmaxHost (V (Proc.devRef .tc main_v50)) := by
  after_results_simp
  simp only [ofBuf_toBuf]
  rfl

/-! ## The whole run -/

/-- No operation writes an argument of the program. -/
theorem ops_keep (V : Valuation τ sig (Elt F)) (r : Ref sig .tc)
    (h0 : r ∉ ([main_v0, main_v1, main_v2, main_v3] : List (Ref sig .tc)))
    (h1 : r ∉ ([main_v4, main_v5, main_c, main_v6, main_v7, main_c_0, main_v8, main_v9, main_v10, main_v11, main_v12, main_cst, main_v13, main_v14, main_v15, main_v16, main_v17, main_v18, main_call0_cst, main_call0_v0, main_v19] : List (Ref sig .tc)))
    (h2 : r ∉ ([main_v20, main_v21, main_c_1, main_v22, main_v23, main_c_2, main_v24, main_v25, main_v26, main_v27, main_v28, main_cst_3, main_v29, main_v30, main_v31, main_v32, main_v33, main_v34, main_call1_cst, main_call1_v0, main_v35] : List (Ref sig .tc)))
    (h3 : r ∉ ([main_v36, main_v37, main_c_4, main_v38, main_v39, main_c_5, main_v40, main_v41, main_v42, main_v43, main_v44, main_cst_6, main_v45, main_v46, main_v47, main_v48, main_v49, main_v50] : List (Ref sig .tc)))
    (h4 : r ∉ ([main_call2_cst, main_call2_v0, main_call2_cst_0, main_call2_v1, main_call2_v2, main_call2_v3, main_call2_v4, main_call2_v5, main_call2_v6, main_call2_cst_1, main_call2_v7, main_call2_v8, main_call2_v9, main_call2_v10, main_v51] : List (Ref sig .tc))) :
    after ValueP.ops V (Proc.devRef .tc r) = V (Proc.devRef .tc r) := by
  rw [after_ops, keep_L3b _ r h4, keep_L3a _ r h3, keep_L2 _ r h2, keep_L1 _ r h1, keep_L0 _ r h0]

/-- The result buffer after all the operations: the network of the eight arguments. -/
theorem ops_v51 (V : Valuation τ sig (Elt Ideal)) :
    after ValueP.ops V (Proc.devRef .tc main_v51)
      = Cert.KernelIdeal.Hand.net (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [after_ops, L3b_out, L3a_out, output_eq,
    keep_L2 _ main_v1 (by decide), keep_L2 _ main_v3 (by decide), keep_L2 _ main_arg6 (by decide), keep_L2 _ main_arg7 (by decide),
    L2_out, hiddenHost_eq,
    keep_L1 _ main_v1 (by decide), keep_L1 _ main_v3 (by decide), keep_L1 _ main_arg4 (by decide), keep_L1 _ main_arg5 (by decide), keep_L1 _ main_arg6 (by decide), keep_L1 _ main_arg7 (by decide),
    L1_out, hiddenHost_eq,
    L0_v1, L0_v3, keep_L0 _ main_arg0 (by decide), keep_L0 _ main_arg2 (by decide), keep_L0 _ main_arg3 (by decide), keep_L0 _ main_arg4 (by decide), keep_L0 _ main_arg5 (by decide), keep_L0 _ main_arg6 (by decide), keep_L0 _ main_arg7 (by decide),
    srcHost_eq, dstHost_eq]
  rfl

/-- On every device, from any memory with zero counters: every weakly fair execution of the program terminates with
    the result buffer at the network of the eight arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = Cert.KernelIdeal.Hand.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v51).trans (ops_v51 (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide))⟩)
    (run_seq ValueP.scopedRefs_eq ValueP.scopedSems_eq defs main (fun _ => ValueP.ops) ValueP.main_eq (fun _ => ValueP.ops_sub) m ρ)

end Cert.ReferenceIdeal.Hand

end
-- ==== Proof.lean ====
/-
  A three-layer graph-convolution network, computed band by band in six kernel regions, against its plain reference.

  Both programs compute, from the node features x, the edge list e, three weight matrices and three biases,
      net = logsoftmax( A (relu( A (relu( A (x W1ᵀ) + b1 )) W2ᵀ) + b2 ) W3ᵀ) + b3 ),
  where "A h" sums the rows of h along the edges (row src(j) is added onto row dst(j) for every edge j, a negative
  source number wrapped once) and the logarithm of the softmax is taken along each row.  The kernel program does the
  three products and the three bias-and-activation steps in regions that walk ten bands of 5000 rows, and leaves the
  sums along the edges to the same host operations the reference uses.  Every one of those six steps is ROW-WISE —
  row r of the result depends on row r of the operand only — so a band of the step's result is the step applied to
  the band, the bands cover the array, and each region leaves exactly the step applied to the whole array
  (Proof/Region0 … Region5).  On extended reals the matrix unit's product onto a zero accumulator and the host's
  dot_general are the same sums, a format change is the identity, a lane maximum or sum and a host reduction are
  the same fold, and the reference's extra maximum with minus infinity changes nothing (Proof/LibRowOps).  So both runs end
  with the result buffer at "net" of the arguments (Proof/KernelRun, Proof/RefRun), and the claim follows.  No
  finiteness of the inputs is used: the two sides are the same function on all extended reals.  The idealization
  rewrote nothing, so the statement that the idealized kernel is the kernel's sanctioned idealization is empty.
-/
import proofs.«176552_j240518168947_1_alg».proof.Defs
import proofs.«176552_j240518168947_1_alg».proof.Proof.Gen.Kernel
import proofs.«176552_j240518168947_1_alg».proof.Proof.Gen.Kernel.Frame
import proofs.«176552_j240518168947_1_alg».proof.Proof.Gen.KernelIdeal
import proofs.«176552_j240518168947_1_alg».proof.Proof.Gen.KernelIdeal.Frame
import proofs.«176552_j240518168947_1_alg».proof.Proof.Gen.ReferenceIdeal
import proofs.«176552_j240518168947_1_alg».proof.Proof.Gen.Pre_finite_inputs
import proofs.«176552_j240518168947_1_alg».proof.Proof.KernelRun
import proofs.«176552_j240518168947_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Hand.run m ρ)

/-- The idealization rewrote no operation: nothing to state. -/
theorem preserves : Cert.preserves_Kernel_KernelIdeal := trivial

/-- From memories that agree on the eight arguments both idealized programs end with the result buffer at the
    network of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
